-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x21x64 : Shape := ⟨3, ![4096, 21, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S4096x21x64 : S_.BroadcastsInDim S4096x21x64 (![] : Fin 0 → Fin S4096x21x64.rank)
  reducesTo_S4096x21x64_S_d0_1_2 : S4096x21x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1 .f32) (main_arg5 : FVec F S64x64 .f32) (main_arg6 : FVec F S64 .f32) (main_arg7 : FVec F S64x64 .f32) (main_arg8 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x21x64 .f32) (main_arg1 : FVec F S64x64 .f32) (main_arg2 : FVec F S64 .f32) (main_arg3 : FVec F S1x64 .f32) (main_arg4 : FVec F S1 .f32) (main_arg5 : FVec F S64x64 .f32) (main_arg6 : FVec F S64 .f32) (main_arg7 : FVec F S64x64 .f32) (main_arg8 : FVec F S64 .f32) : IVec S_ 1 :=
  let main_v0 : FVec F S4096x21x64 .f32 := Host.absf main_arg0
  let main_cst : FVec F S_ .f32 := constant S_ .f32 0x7F800000#32
  let main_v1 : FVec F S4096x21x64 .f32 := broadcastInDim S4096x21x64 ![] bcast_S_S4096x21x64 main_cst
  let main_v2 : IVec S4096x21x64 1 := cmpf .olt main_v0 main_v1
  let main_c : IVec S_ 1 := constantI S_ 1 1#1
  let main_v3 : IVec S_ 1 := (fun x v => Host.reduce IntOp.andi x v reducesTo_S4096x21x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_v13 main_v16
-- ==== Kernel.lean ====
abbrev S4096x21x64 : Shape := ⟨3, ![4096, 21, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S4096x20x64 : Shape := ⟨3, ![4096, 20, 64]⟩
abbrev S64x21x64 : Shape := ⟨3, ![64, 21, 64]⟩
abbrev S64x20x64 : Shape := ⟨3, ![64, 20, 64]⟩
abbrev S64x1x64 : Shape := ⟨3, ![64, 1, 64]⟩
abbrev S64x20x1x64 : Shape := ⟨4, ![64, 20, 1, 64]⟩
abbrev S64x1x20x64 : Shape := ⟨4, ![64, 1, 20, 64]⟩
abbrev S64x20x20x64 : Shape := ⟨4, ![64, 20, 20, 64]⟩
abbrev S25600x64 : Shape := ⟨2, ![25600, 64]⟩
abbrev S25600 : Shape := ⟨1, ![25600]⟩
abbrev S64x20x20 : Shape := ⟨3, ![64, 20, 20]⟩
abbrev S64x20 : Shape := ⟨2, ![64, 20]⟩
abbrev S64x20x1 : Shape := ⟨3, ![64, 20, 1]⟩
abbrev S1280x64 : Shape := ⟨2, ![1280, 64]⟩

abbrev nBuf : Space → Nat
  | .hbm => 10
  | .vmem => 12
  | .smem => 0
  | _ => 0

abbrev bufTy : (tb : Table) → Fin (tcTables nBuf tb) → BufTy
  | .hbm, ⟨0, _⟩ => ⟨S4096x21x64, .f32⟩
  | .hbm, ⟨1, _⟩ => ⟨S64x64, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4096x20x64, .f32⟩
  | .local _ .vmem, ⟨0, _⟩ => ⟨S64x21x64, .f32⟩
  | .local _ .vmem, ⟨1, _⟩ => ⟨S64x21x64, .f32⟩
  | .local _ .vmem, ⟨2, _⟩ => ⟨S64x64, .f32⟩
  | .local _ .vmem, ⟨3, _⟩ => ⟨S64, .f32⟩
  | .local _ .vmem, ⟨4, _⟩ => ⟨S1x64, .f32⟩
  | .local _ .vmem, ⟨5, _⟩ => ⟨S1, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x20x64, .f32⟩
  | .local _ .vmem, ⟨11, _⟩ => ⟨S64x20x64, .f32⟩
  | _, _ => ⟨S4096x21x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x21x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x20x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S64x21x64_S64x1x64_0_0_0 : ∀ a, (![0, 0, 0] : Fin 3 → Nat) a + S64x1x64.size a ≤ S64x21x64.size a
  h_S64x1x64 : 0 < S64x1x64.numel
  inb_S64x21x64_S64x20x64_0_1_0 : ∀ a, (![0, 1, 0] : Fin 3 → Nat) a + S64x20x64.size a ≤ S64x21x64.size a
  h_S64x20x64 : 0 < S64x20x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  bitsLt_bf16_f32 : FTy.bits .bf16 < FTy.bits .f32
  shapeCasts_S64x20x64_S64x20x1x64 : S64x20x64.ShapeCasts S64x20x1x64
  shapeCasts_S64x20x64_S64x1x20x64 : S64x20x64.ShapeCasts S64x1x20x64
  broadcasts_S64x20x1x64_S64x20x20x64 : S64x20x1x64.Broadcasts S64x20x20x64
  broadcasts_S64x1x20x64_S64x20x20x64 : S64x1x20x64.Broadcasts S64x20x20x64
  shapeCasts_S64x20x20x64_S25600x64 : S64x20x20x64.ShapeCasts S25600x64
  transposes_S64x64_p1_0_S64x64 : S64x64.Transposes [1, 0] S64x64
  shapeCasts_S64_S1x64 : S64.ShapeCasts S1x64
  broadcasts_S1x64_S25600x64 : S1x64.Broadcasts S25600x64
  shapeCasts_S1x64_S64 : S1x64.ShapeCasts S64
  reduces_S25600x64_S25600 : S25600x64.Reduces [1] S25600
  inpos_S1_p0 : ∀ a, (![0] : Fin 1 → Nat) a < S1.size a
  shapeCasts_S25600_S64x20x20 : S25600.ShapeCasts S64x20x20
  reduces_S64x20x20_S64x20 : S64x20x20.Reduces [2] S64x20
  shapeCasts_S64x20_S64x20x1 : S64x20.ShapeCasts S64x20x1
  broadcasts_S64x20x1_S64x20x20 : S64x20x1.Broadcasts S64x20x20
  shapeCasts_S64x20x64_S1280x64 : S64x20x64.ShapeCasts S1280x64
  broadcasts_S1x64_S1280x64 : S1x64.Broadcasts S1280x64
  shapeCasts_S1280x64_S64x20x64 : S1280x64.ShapeCasts S64x20x64
  broadcasts_S64x1x64_S64x20x64 : S64x1x64.Broadcasts S64x20x64
  inb_S64x20x64_S64x20x64_0_0_0 : ∀ a, (![0, 0, 0] : Fin 3 → Nat) a + S64x20x64.size a ≤ S64x20x64.size a
  dot_S25600x64_S64x64_S25600x64_1_0_0_1_n_n_wf : DotDims.WF S25600x64 S64x64 S25600x64 [1] [0] [0] [1] [] []
  dot_S64x20x20_S64x20x64_S64x20x64_2_1_1_2_0_0_wf : DotDims.WF S64x20x20 S64x20x64 S64x20x64 [2] [1] [1] [2] [0] [0]
  dot_S1280x64_S64x64_S1280x64_1_0_0_1_n_n_wf : DotDims.WF S1280x64 S64x64 S1280x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x21x64.size a ≤ S4096x21x64.size a
  hwx0_0 : ∀ i : grid0.Coords, EltTy.bits .f32 = 32 ∨ (Rect.block (s := S4096x21x64) S64x21x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x20x64.size a ≤ S4096x20x64.size a
  hwx0_9 : ∀ i : grid0.Coords, EltTy.bits .f32 = 32 ∨ (Rect.block (s := S4096x20x64) S64x20x64.size (cc0_transform_9 i) (hinb0_9 i)).WholeWords (EltTy.packing .f32)

variable [Facts₀]

def dot_S25600x64_S64x64_S25600x64_1_0_0_1_n_n : DotDims S25600x64 S64x64 S25600x64 where
  lhsContracting := [1]
  rhsContracting := [0]
  lhsNonContracting := [0]
  rhsNonContracting := [1]
  lhsBatch := []
  rhsBatch := []
  wf := dot_S25600x64_S64x64_S25600x64_1_0_0_1_n_n_wf
def dot_S64x20x20_S64x20x64_S64x20x64_2_1_1_2_0_0 : DotDims S64x20x20 S64x20x64 S64x20x64 where
  lhsContracting := [2]
  rhsContracting := [1]
  lhsNonContracting := [1]
  rhsNonContracting := [2]
  lhsBatch := [0]
  rhsBatch := [0]
  wf := dot_S64x20x20_S64x20x64_S64x20x64_2_1_1_2_0_0_wf
def dot_S1280x64_S64x64_S1280x64_1_0_0_1_n_n : DotDims S1280x64 S64x64 S1280x64 where
  lhsContracting := [1]
  rhsContracting := [0]
  lhsNonContracting := [0]
  rhsNonContracting := [1]
  lhsBatch := []
  rhsBatch := []
  wf := dot_S1280x64_S64x64_S1280x64_1_0_0_1_n_n_wf

abbrev win0_0 : Pipeline.Window sig grid0 :=
  Pipeline.Window.ofSpec (Memref.whole main_arg0) S64x21x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S64x20x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x21x64 : Shape := ⟨3, ![4096, 21, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S4096x1x64 : Shape := ⟨3, ![4096, 1, 64]⟩
abbrev S4096x20x64 : Shape := ⟨3, ![4096, 20, 64]⟩
abbrev S4096x20x1x64 : Shape := ⟨4, ![4096, 20, 1, 64]⟩
abbrev S4096x1x20x64 : Shape := ⟨4, ![4096, 1, 20, 64]⟩
abbrev S4096x20x20x64 : Shape := ⟨4, ![4096, 20, 20, 64]⟩
abbrev S1x1x1x64 : Shape := ⟨4, ![1, 1, 1, 64]⟩
abbrev S_ : Shape := ⟨0, ![]⟩
abbrev S4096x20x20x1 : Shape := ⟨4, ![4096, 20, 20, 1]⟩
abbrev S1x1x1x1 : Shape := ⟨4, ![1, 1, 1, 1]⟩
abbrev S4096x20x1 : Shape := ⟨3, ![4096, 20, 1]⟩
abbrev S4096x20x1x1 : Shape := ⟨4, ![4096, 20, 1, 1]⟩
abbrev S1x1x64 : Shape := ⟨3, ![1, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S4096x21x64, .f32⟩
  | .hbm, ⟨1, _⟩ => ⟨S64x64, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4096x1x64, .f32⟩
  | .hbm, ⟨10, _⟩ => ⟨S4096x20x64, .f32⟩
  | .hbm, ⟨11, _⟩ => ⟨S4096x20x64, .f32⟩
  | .hbm, ⟨12, _⟩ => ⟨S4096x20x64, .f32⟩
  | .hbm, ⟨13, _⟩ => ⟨S4096x20x1x64, .f32⟩
  | .hbm, ⟨14, _⟩ => ⟨S4096x1x20x64, .f32⟩
  | .hbm, ⟨15, _⟩ => ⟨S4096x20x20x64, .f32⟩
  | .hbm, ⟨16, _⟩ => ⟨S4096x20x20x64, .f32⟩
  | .hbm, ⟨17, _⟩ => ⟨S4096x20x20x64, .f32⟩
  | .hbm, ⟨18, _⟩ => ⟨S4096x20x20x64, .f32⟩
  | .hbm, ⟨19, _⟩ => ⟨S1x1x1x64, .f32⟩
  | .hbm, ⟨20, _⟩ => ⟨S4096x20x20x64, .f32⟩
  | .hbm, ⟨21, _⟩ => ⟨S4096x20x20x64, .f32⟩
  | .hbm, ⟨22, _⟩ => ⟨S_, .f32⟩
  | .hbm, ⟨23, _⟩ => ⟨S4096x20x20x64, .f32⟩
  | .hbm, ⟨24, _⟩ => ⟨S4096x20x20x64, .i1⟩
  | .hbm, ⟨25, _⟩ => ⟨S_, .f32⟩
  | .hbm, ⟨26, _⟩ => ⟨S4096x20x20x64, .f32⟩
  | .hbm, ⟨27, _⟩ => ⟨S4096x20x20x64, .f32⟩
  | .hbm, ⟨28, _⟩ => ⟨S4096x20x20x64, .f32⟩
  | .hbm, ⟨29, _⟩ => ⟨S4096x20x20x1, .f32⟩
  | .hbm, ⟨30, _⟩ => ⟨S1x1x1x1, .f32⟩
  | .hbm, ⟨31, _⟩ => ⟨S4096x20x20x1, .f32⟩
  | .hbm, ⟨32, _⟩ => ⟨S4096x20x20x1, .f32⟩
  | .hbm, ⟨33, _⟩ => ⟨S_, .f32⟩
  | .hbm, ⟨34, _⟩ => ⟨S4096x20x1, .f32⟩
  | .hbm, ⟨35, _⟩ => ⟨S_, .f32⟩
  | .hbm, ⟨36, _⟩ => ⟨S4096x20x1, .f32⟩
  | .hbm, ⟨37, _⟩ => ⟨S4096x20x1, .f32⟩
  | .hbm, ⟨38, _⟩ => ⟨S4096x20x1x1, .f32⟩
  | .hbm, ⟨39, _⟩ => ⟨S4096x20x20x1, .f32⟩
  | .hbm, ⟨40, _⟩ => ⟨S4096x20x20x1, .f32⟩
  | .hbm, ⟨41, _⟩ => ⟨S4096x20x20x1, .f32⟩
  | .hbm, ⟨42, _⟩ => ⟨S_, .f32⟩
  | .hbm, ⟨43, _⟩ => ⟨S4096x20x1, .f32⟩
  | .hbm, ⟨44, _⟩ => ⟨S4096x20x1x1, .f32⟩
  | .hbm, ⟨45, _⟩ => ⟨S4096x20x20x1, .f32⟩
  | .hbm, ⟨46, _⟩ => ⟨S4096x20x20x1, .f32⟩
  | .hbm, ⟨47, _⟩ => ⟨S4096x1x20x64, .f32⟩
  | .hbm, ⟨48, _⟩ => ⟨S4096x20x20x64, .f32⟩
  | .hbm, ⟨49, _⟩ => ⟨S4096x20x20x64, .f32⟩
  | .hbm, ⟨50, _⟩ => ⟨S4096x20x20x64, .f32⟩
  | .hbm, ⟨51, _⟩ => ⟨S_, .f32⟩
  | .hbm, ⟨52, _⟩ => ⟨S4096x20x64, .f32⟩
  | .hbm, ⟨53, _⟩ => ⟨S4096x20x64, .f32⟩
  | .hbm, ⟨54, _⟩ => ⟨S1x1x64, .f32⟩
  | .hbm, ⟨55, _⟩ => ⟨S4096x20x64, .f32⟩
  | .hbm, ⟨56, _⟩ => ⟨S4096x20x64, .f32⟩
  | .hbm, ⟨57, _⟩ => ⟨S4096x20x64, .f32⟩
  | .hbm, ⟨58, _⟩ => ⟨S4096x20x64, .f32⟩
  | .hbm, ⟨59, _⟩ => ⟨S1x1x64, .f32⟩
  | .hbm, ⟨60, _⟩ => ⟨S4096x20x64, .f32⟩
  | .hbm, ⟨61, _⟩ => ⟨S4096x20x64, .f32⟩
  | .hbm, ⟨62, _⟩ => ⟨S4096x20x64, .f32⟩
  | .hbm, ⟨63, _⟩ => ⟨S_, .f32⟩
  | .hbm, ⟨64, _⟩ => ⟨S4096x20x64, .f32⟩
  | .hbm, ⟨65, _⟩ => ⟨S4096x20x64, .i1⟩
  | .hbm, ⟨66, _⟩ => ⟨S_, .f32⟩
  | .hbm, ⟨67, _⟩ => ⟨S4096x20x64, .f32⟩
  | .hbm, ⟨68, _⟩ => ⟨S4096x20x64, .f32⟩
  | .hbm, ⟨69, _⟩ => ⟨S4096x20x64, .f32⟩
  | _, _ => ⟨S4096x21x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_v44 : Ref sig .tc := ⟨.hbm, 69, rfl⟩

abbrev nD : Nat := 1
abbrev τ : Topo := Topo.v7x

variable {F : FTy → Type} [FloatOps F]

class Facts₀ : Prop where
  slices_S4096x21x64_S4096x1x64_0_0_0 : S4096x21x64.Slices ![0, 0, 0] S4096x1x64
  slices_S4096x21x64_S4096x20x64_0_1_0 : S4096x21x64.Slices ![0, 1, 0] S4096x20x64
  bcast_S4096x1x64_S4096x20x64_0_1_2 : S4096x1x64.BroadcastsInDim S4096x20x64 (![0, 1, 2] : Fin 3 → Fin S4096x20x64.rank)
  bcast_S4096x20x64_S4096x20x1x64_0_1_3 : S4096x20x64.BroadcastsInDim S4096x20x1x64 (![0, 1, 3] : Fin 3 → Fin S4096x20x1x64.rank)
  bcast_S4096x20x64_S4096x1x20x64_0_2_3 : S4096x20x64.BroadcastsInDim S4096x1x20x64 (![0, 2, 3] : Fin 3 → Fin S4096x1x20x64.rank)
  bcast_S4096x20x1x64_S4096x20x20x64_0_1_2_3 : S4096x20x1x64.BroadcastsInDim S4096x20x20x64 (![0, 1, 2, 3] : Fin 4 → Fin S4096x20x20x64.rank)
  bcast_S4096x1x20x64_S4096x20x20x64_0_1_2_3 : S4096x1x20x64.BroadcastsInDim S4096x20x20x64 (![0, 1, 2, 3] : Fin 4 → Fin S4096x20x20x64.rank)
  bcast_S64_S1x1x1x64_3 : S64.BroadcastsInDim S1x1x1x64 (![3] : Fin 1 → Fin S1x1x1x64.rank)
  bcast_S1x1x1x64_S4096x20x20x64_0_1_2_3 : S1x1x1x64.BroadcastsInDim S4096x20x20x64 (![0, 1, 2, 3] : Fin 4 → Fin S4096x20x20x64.rank)
  bcast_S_S4096x20x20x64 : S_.BroadcastsInDim S4096x20x20x64 (![] : Fin 0 → Fin S4096x20x20x64.rank)
  bcast_S1_S1x1x1x1_3 : S1.BroadcastsInDim S1x1x1x1 (![3] : Fin 1 → Fin S1x1x1x1.rank)
  bcast_S1x1x1x1_S4096x20x20x1_0_1_2_3 : S1x1x1x1.BroadcastsInDim S4096x20x20x1 (![0, 1, 2, 3] : Fin 4 → Fin S4096x20x20x1.rank)
  reducesTo_S4096x20x20x1_S4096x20x1_d2 : S4096x20x20x1.ReducesTo [2] S4096x20x1
  h_S_ : 0 < S_.numel
  bcast_S_S4096x20x1 : S_.BroadcastsInDim S4096x20x1 (![] : Fin 0 → Fin S4096x20x1.rank)
  bcast_S4096x20x1_S4096x20x1x1_0_1_3 : S4096x20x1.BroadcastsInDim S4096x20x1x1 (![0, 1, 3] : Fin 3 → Fin S4096x20x1x1.rank)
  bcast_S4096x20x1x1_S4096x20x20x1_0_1_2_3 : S4096x20x1x1.BroadcastsInDim S4096x20x20x1 (![0, 1, 2, 3] : Fin 4 → Fin S4096x20x20x1.rank)
  bcast_S4096x20x20x1_S4096x20x20x64_0_1_2_3 : S4096x20x20x1.BroadcastsInDim S4096x20x20x64 (![0, 1, 2, 3] : Fin 4 → Fin S4096x20x20x64.rank)
  reducesTo_S4096x20x20x64_S4096x20x64_d2 : S4096x20x20x64.ReducesTo [2] S4096x20x64
  bcast_S64_S1x1x64_2 : S64.BroadcastsInDim S1x1x64 (![2] : Fin 1 → Fin S1x1x64.rank)
  bcast_S1x1x64_S4096x20x64_0_1_2 : S1x1x64.BroadcastsInDim S4096x20x64 (![0, 1, 2] : Fin 3 → Fin S4096x20x64.rank)
  bcast_S_S4096x20x64 : S_.BroadcastsInDim S4096x20x64 (![] : Fin 0 → Fin S4096x20x64.rank)
  dot_S4096x20x20x64_S64x64_S4096x20x20x64_3_1_012_0_n_n_wf : DotDims.WF S4096x20x20x64 S64x64 S4096x20x20x64 [3] [1] [0, 1, 2] [0] [] []
  dot_S4096x20x20x64_S1x64_S4096x20x20x1_3_1_012_0_n_n_wf : DotDims.WF S4096x20x20x64 S1x64 S4096x20x20x1 [3] [1] [0, 1, 2] [0] [] []
  dot_S4096x20x64_S64x64_S4096x20x64_2_1_01_0_n_n_wf : DotDims.WF S4096x20x64 S64x64 S4096x20x64 [2] [1] [0, 1] [0] [] []

variable [Facts₀]

def dot_S4096x20x20x64_S64x64_S4096x20x20x64_3_1_012_0_n_n : DotDims S4096x20x20x64 S64x64 S4096x20x20x64 where
  lhsContracting := [3]
  rhsContracting := [1]
  lhsNonContracting := [0, 1, 2]
  rhsNonContracting := [0]
  lhsBatch := []
  rhsBatch := []
  wf := dot_S4096x20x20x64_S64x64_S4096x20x20x64_3_1_012_0_n_n_wf
def dot_S4096x20x20x64_S1x64_S4096x20x20x1_3_1_012_0_n_n : DotDims S4096x20x20x64 S1x64 S4096x20x20x1 where
  lhsContracting := [3]
  rhsContracting := [1]
  lhsNonContracting := [0, 1, 2]
  rhsNonContracting := [0]
  lhsBatch := []
  rhsBatch := []
  wf := dot_S4096x20x20x64_S1x64_S4096x20x20x1_3_1_012_0_n_n_wf
def dot_S4096x20x64_S64x64_S4096x20x64_2_1_01_0_n_n : DotDims S4096x20x64 S64x64 S4096x20x64 where
  lhsContracting := [2]
  rhsContracting := [1]
  lhsNonContracting := [0, 1]
  rhsNonContracting := [0]
  lhsBatch := []
  rhsBatch := []
  wf := dot_S4096x20x64_S64x64_S4096x20x64_2_1_01_0_n_n_wf

class Facts : Prop extends Facts₀ where

variable [Facts]
-- ==== Proof.Spec.lean ====
/-
  One batch row of the attention layer, as a function on the extended reals.

  A row holds 21 vectors of 64 numbers: the first is the user's, the other twenty are the items'.
  Every pair of items (i, j) gets a hidden vector, the leaky rectifier of an affine map of the sum of
  the two item vectors; a score, an affine functional of the hidden vector; the scores of one item i
  against all j are normalised by a softmax taken from the row maximum; the items are mixed with
  these weights, and two affine maps with a residual follow; the result is the leaky rectifier of
  the user-item product plus that. Every sum is a finite sum over a literal index type, every
  constant is kept as the word both programs hold.
-/
import Idealize.ShloMosaic.PureOps.Ideal
import Idealize.ShloMosaic.Lib.ValueIdx

noncomputable section

open scoped BigOperators

namespace Cert.AttRow

open Idealize.ShloMosaic

/-- The leaky rectifier with slope the f32 nearest to 1/100: x where x ≥ 0, slope · x elsewhere. -/
def lrelu (x : EReal) : EReal :=
  Scalar.select (FloatOps.cmpf (F := Ideal) (φ := .f32) .oge x (Ideal.ofBits .f32 0x00000000#32)) x
    (Ideal.ofBits .f32 0x3C23D70A#32 * x)

/-- The largest of twenty scores, taken from −∞ and once more against −∞. -/
def top (s : Fin 20 → EReal) : EReal :=
  max (Ideal.ofBits .f32 0xFF800000#32) ((Finset.univ : Finset (Fin 20)).fold max (Ideal.ofBits .f32 0xFF800000#32) s)

/-- The exponential of a score's distance below the largest. -/
def ex (s : Fin 20 → EReal) (j : Fin 20) : EReal := Ideal.exp (s j - top s)

/-- The softmax weight of score j among the twenty. -/
def weight (s : Fin 20 → EReal) (j : Fin 20) : EReal := Ideal.div (ex s j) (∑ k : Fin 20, ex s k)

variable (e : Fin 21 → Fin 64 → EReal) (W : Fin 64 → Fin 64 → EReal) (wb : Fin 64 → EReal)
  (h : Fin 64 → EReal) (hb : EReal)
  (W1 : Fin 64 → Fin 64 → EReal) (b1 : Fin 64 → EReal) (W2 : Fin 64 → Fin 64 → EReal) (b2 : Fin 64 → EReal)

/-- Item i's vector: slot i + 1 of the row. -/
def item (i : Fin 20) (d : Fin 64) : EReal := e ⟨i.val + 1, by omega⟩ d

/-- The hidden vector of the pair (i, j). -/
def hid (i j : Fin 20) (o : Fin 64) : EReal :=
  lrelu ((∑ d : Fin 64, (item e i d + item e j d) * W o d) + wb o)

/-- The score of the pair (i, j). -/
def score (i j : Fin 20) : EReal := (∑ o : Fin 64, hid e W wb i j o * h o) + hb

/-- The items mixed with item i's softmax weights. -/
def mix (i : Fin 20) (d : Fin 64) : EReal :=
  ∑ j : Fin 20, weight (score e W wb h hb i) j * item e j d

/-- The first affine map of the mixture. -/
def lin1 (i : Fin 20) (o : Fin 64) : EReal := (∑ d : Fin 64, mix e W wb h hb i d * W1 o d) + b1 o

/-- The second affine map, of the first plus the item itself. -/
def lin2 (i : Fin 20) (o : Fin 64) : EReal :=
  (∑ d : Fin 64, (lin1 e W wb h hb W1 b1 i d + item e i d) * W2 o d) + b2 o

/-- The row's result at item i, coordinate o. -/
def out (i : Fin 20) (o : Fin 64) : EReal :=
  lrelu (e 0 o * item e i o + lin2 e W wb h hb W1 b1 W2 b2 i o)

/-- The whole result array: entry (b, i, o) is the row function of batch row b of the embeddings, at item i and
    coordinate o; the weights are read through their coordinates. -/
def G (a0 : (⟨3, ![4096, 21, 64]⟩ : Shape).Idx → EReal) (a1 : (⟨2, ![64, 64]⟩ : Shape).Idx → EReal)
    (a2 : (⟨1, ![64]⟩ : Shape).Idx → EReal) (a3 : (⟨2, ![1, 64]⟩ : Shape).Idx → EReal) (a4 : (⟨1, ![1]⟩ : Shape).Idx → EReal)
    (a5 : (⟨2, ![64, 64]⟩ : Shape).Idx → EReal) (a6 : (⟨1, ![64]⟩ : Shape).Idx → EReal)
    (a7 : (⟨2, ![64, 64]⟩ : Shape).Idx → EReal) (a8 : (⟨1, ![64]⟩ : Shape).Idx → EReal) :
    (⟨3, ![4096, 20, 64]⟩ : Shape).Idx → EReal :=
  fun y => out (fun n d => a0 (ValueIdx.ix3 (y 0) n d)) (fun o d => a1 (ValueIdx.ix2 o d)) (fun o => a2 (ValueIdx.ix1 o))
    (fun o => a3 (ValueIdx.ix2 (0 : Fin 1) o)) (a4 (ValueIdx.ix1 (0 : Fin 1)))
    (fun o d => a5 (ValueIdx.ix2 o d)) (fun o => a6 (ValueIdx.ix1 o))
    (fun o d => a7 (ValueIdx.ix2 o d)) (fun o => a8 (ValueIdx.ix1 o)) (y 1) (y 2)

theorem G_apply (a0 : (⟨3, ![4096, 21, 64]⟩ : Shape).Idx → EReal) (a1 : (⟨2, ![64, 64]⟩ : Shape).Idx → EReal)
    (a2 : (⟨1, ![64]⟩ : Shape).Idx → EReal) (a3 : (⟨2, ![1, 64]⟩ : Shape).Idx → EReal) (a4 : (⟨1, ![1]⟩ : Shape).Idx → EReal)
    (a5 : (⟨2, ![64, 64]⟩ : Shape).Idx → EReal) (a6 : (⟨1, ![64]⟩ : Shape).Idx → EReal)
    (a7 : (⟨2, ![64, 64]⟩ : Shape).Idx → EReal) (a8 : (⟨1, ![64]⟩ : Shape).Idx → EReal)
    (b : Fin 4096) (i : Fin 20) (o : Fin 64) :
    G a0 a1 a2 a3 a4 a5 a6 a7 a8 (ValueIdx.ix3 b i o)
      = out (fun n d => a0 (ValueIdx.ix3 b n d)) (fun o d => a1 (ValueIdx.ix2 o d)) (fun o => a2 (ValueIdx.ix1 o))
          (fun o => a3 (ValueIdx.ix2 (0 : Fin 1) o)) (a4 (ValueIdx.ix1 (0 : Fin 1)))
          (fun o d => a5 (ValueIdx.ix2 o d)) (fun o => a6 (ValueIdx.ix1 o))
          (fun o d => a7 (ValueIdx.ix2 o d)) (fun o => a8 (ValueIdx.ix1 o)) i o := rfl

end Cert.AttRow

end
-- ==== Proof.LibAttLayout.lean ====
/-
  The re-layings this kernel's body makes, each read at an index.

  The body flattens the batch and item axes into rows: row (b·20 + i) of a [1280, 64] matrix is item i of batch
  entry b, row ((b·20 + i)·20 + j) of a [25600, 64] matrix is the pair (i, j) of batch entry b. A shape cast keeps
  the row-major position, so it reads the operand at the index with the same position; the broadcasts read the
  operand with the stretched coordinate at 0; a row vector spread over all rows reads its one row.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttLayout

open Idealize.ShloMosaic Idealize.ShloMosaic.ValueIdx

variable {α : Type}

/-- A [B, N, D] array cast to [B·N, D] reads, at row b·N + i, the operand at (b, i). -/
theorem cast_3_2 {B N D R : ℕ} (x : (⟨3, ![B, N, D]⟩ : Shape).Idx → α)
    (h : (⟨3, ![B, N, D]⟩ : Shape).ShapeCasts ⟨2, ![R, D]⟩) (b : Fin B) (i : Fin N) (d : Fin D) (r : Fin R)
    (hr : r.val = b.val * N + i.val) :
    shapeCast ⟨2, ![R, D]⟩ x h (ix2 r d) = x (ix3 b i d) :=
  shapeCast_apply x h _ _ (by
    rw [Shape.rowMajor_val_three, Shape.rowMajor_val_two]
    show (b.val * N + i.val) * D + d.val = r.val * D + d.val
    rw [hr])

/-- A [B·N, D] matrix cast to [B, N, D] reads, at (b, i), the operand's row b·N + i. -/
theorem cast_2_3 {B N D R : ℕ} (x : (⟨2, ![R, D]⟩ : Shape).Idx → α)
    (h : (⟨2, ![R, D]⟩ : Shape).ShapeCasts ⟨3, ![B, N, D]⟩) (b : Fin B) (i : Fin N) (d : Fin D) (r : Fin R)
    (hr : r.val = b.val * N + i.val) :
    shapeCast ⟨3, ![B, N, D]⟩ x h (ix3 b i d) = x (ix2 r d) :=
  shapeCast_apply x h _ _ (by
    rw [Shape.rowMajor_val_three, Shape.rowMajor_val_two]
    show r.val * D + d.val = (b.val * N + i.val) * D + d.val
    rw [hr])

/-- A vector of length B·N·M cast to [B, N, M] reads, at (b, i, j), the operand at position (b·N + i)·M + j. -/
theorem cast_1_3 {B N M R : ℕ} (x : (⟨1, ![R]⟩ : Shape).Idx → α)
    (h : (⟨1, ![R]⟩ : Shape).ShapeCasts ⟨3, ![B, N, M]⟩) (b : Fin B) (i : Fin N) (j : Fin M) (r : Fin R)
    (hr : r.val = (b.val * N + i.val) * M + j.val) :
    shapeCast ⟨3, ![B, N, M]⟩ x h (ix3 b i j) = x (ix1 r) :=
  shapeCast_apply x h _ _ (by
    rw [Shape.rowMajor_val_three, Shape.rowMajor_val_one]
    show r.val = (b.val * N + i.val) * M + j.val
    exact hr)

/-- A [B, N, M, D] array cast to [B·N·M, D] reads, at row (b·N + i)·M + j, the operand at (b, i, j). -/
theorem cast_4_2 {B N M D R : ℕ} (x : (⟨4, ![B, N, M, D]⟩ : Shape).Idx → α)
    (h : (⟨4, ![B, N, M, D]⟩ : Shape).ShapeCasts ⟨2, ![R, D]⟩) (b : Fin B) (i : Fin N) (j : Fin M) (d : Fin D) (r : Fin R)
    (hr : r.val = (b.val * N + i.val) * M + j.val) :
    shapeCast ⟨2, ![R, D]⟩ x h (ix2 r d) = x (ix4 b i j d) :=
  shapeCast_apply x h _ _ (by
    rw [Shape.rowMajor_val_four, Shape.rowMajor_val_two]
    show ((b.val * N + i.val) * M + j.val) * D + d.val = r.val * D + d.val
    rw [hr])

/-- A [B, N, D] array cast to [B, N, 1, D] reads, at (b, i, u, d), the operand at (b, i, d). -/
theorem cast_3_4_mid {B N D : ℕ} (x : (⟨3, ![B, N, D]⟩ : Shape).Idx → α)
    (h : (⟨3, ![B, N, D]⟩ : Shape).ShapeCasts ⟨4, ![B, N, 1, D]⟩) (b : Fin B) (i : Fin N) (u : Fin 1) (d : Fin D) :
    shapeCast ⟨4, ![B, N, 1, D]⟩ x h (ix4 b i u d) = x (ix3 b i d) :=
  shapeCast_apply x h _ _ (by
    have hu : u.val = 0 := by omega
    rw [Shape.rowMajor_val_four, Shape.rowMajor_val_three]
    show (b.val * N + i.val) * D + d.val = ((b.val * N + i.val) * 1 + u.val) * D + d.val
    rw [hu, Nat.mul_one, Nat.add_zero])

/-- A [B, N, D] array cast to [B, 1, N, D] reads, at (b, u, j, d), the operand at (b, j, d). -/
theorem cast_3_4_front {B N D : ℕ} (x : (⟨3, ![B, N, D]⟩ : Shape).Idx → α)
    (h : (⟨3, ![B, N, D]⟩ : Shape).ShapeCasts ⟨4, ![B, 1, N, D]⟩) (b : Fin B) (u : Fin 1) (j : Fin N) (d : Fin D) :
    shapeCast ⟨4, ![B, 1, N, D]⟩ x h (ix4 b u j d) = x (ix3 b j d) :=
  shapeCast_apply x h _ _ (by
    have hu : u.val = 0 := by omega
    rw [Shape.rowMajor_val_four, Shape.rowMajor_val_three]
    show (b.val * N + j.val) * D + d.val = ((b.val * 1 + u.val) * N + j.val) * D + d.val
    rw [hu, Nat.mul_one, Nat.add_zero])

/-- A [B, N, 1, D] array spread to [B, N, M, D] reads, at (b, i, j, d), the operand at (b, i, 0, d). -/
theorem spread_4_mid {B N M D : ℕ} (x : (⟨4, ![B, N, 1, D]⟩ : Shape).Idx → α)
    (h : (⟨4, ![B, N, 1, D]⟩ : Shape).Broadcasts ⟨4, ![B, N, M, D]⟩) (b : Fin B) (i : Fin N) (j : Fin M) (d : Fin D) :
    broadcastTo ⟨4, ![B, N, M, D]⟩ x h (ix4 b i j d) = x (ix4 b i (0 : Fin 1) d) := by
  refine broadcastTo_apply x h (ix4 b i j d) (ix4 b i (0 : Fin 1) d) fun ax => ?_
  match ax with
  | ⟨0, _⟩ =>
    show b.val = if B = 1 then 0 else b.val
    split
    · have := b.isLt; omega
    · rfl
  | ⟨1, _⟩ =>
    show i.val = if N = 1 then 0 else i.val
    split
    · have := i.isLt; omega
    · rfl
  | ⟨2, _⟩ => rfl
  | ⟨3, _⟩ =>
    show d.val = if D = 1 then 0 else d.val
    split
    · have := d.isLt; omega
    · rfl

/-- A [B, 1, M, D] array spread to [B, N, M, D] reads, at (b, i, j, d), the operand at (b, 0, j, d). -/
theorem spread_4_front {B N M D : ℕ} (x : (⟨4, ![B, 1, M, D]⟩ : Shape).Idx → α)
    (h : (⟨4, ![B, 1, M, D]⟩ : Shape).Broadcasts ⟨4, ![B, N, M, D]⟩) (b : Fin B) (i : Fin N) (j : Fin M) (d : Fin D) :
    broadcastTo ⟨4, ![B, N, M, D]⟩ x h (ix4 b i j d) = x (ix4 b (0 : Fin 1) j d) := by
  refine broadcastTo_apply x h (ix4 b i j d) (ix4 b (0 : Fin 1) j d) fun ax => ?_
  match ax with
  | ⟨0, _⟩ =>
    show b.val = if B = 1 then 0 else b.val
    split
    · have := b.isLt; omega
    · rfl
  | ⟨1, _⟩ => rfl
  | ⟨2, _⟩ =>
    show j.val = if M = 1 then 0 else j.val
    split
    · have := j.isLt; omega
    · rfl
  | ⟨3, _⟩ =>
    show d.val = if D = 1 then 0 else d.val
    split
    · have := d.isLt; omega
    · rfl

/-- A vector of length D cast to a one-row matrix and spread over R rows reads, at (r, o), the vector at o. -/
theorem row_spread {R D : ℕ} (v : (⟨1, ![D]⟩ : Shape).Idx → α) (hc : (⟨1, ![D]⟩ : Shape).ShapeCasts ⟨2, ![1, D]⟩)
    (hb : (⟨2, ![1, D]⟩ : Shape).Broadcasts ⟨2, ![R, D]⟩) (r : Fin R) (o : Fin D) :
    broadcastTo ⟨2, ![R, D]⟩ (shapeCast ⟨2, ![1, D]⟩ v hc) hb (ix2 r o) = v (ix1 o) :=
  (broadcastTo_1b_ab_apply _ hb r o).trans (shapeCast_a_1a_apply v hc (0 : Fin 1) o)

variable {φ : FTy}

/-- At the ideal values the sum of an [a, b] matrix along its rows is, at i, the sum over k of the entries (i, k). -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the maximum of an [a, b, c] array along its last axis is, at (i, j), the fold of max from the
    accumulator's value over k of the entries (i, j, k). -/
theorem lastMax_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  refine (Ideal.multiReduction_maximumf_single src acc h hφ hacc (ix2 i j)).trans ?_
  refine congrArg (fun f => (Finset.univ : Finset (Fin c)).fold max (Ideal.ofBits φ acc) f)
    (funext fun k => congrArg src (funext fun ax => Fin.ext ?_))
  match ax with
  | ⟨0, _⟩ => rfl
  | ⟨1, _⟩ => rfl
  | ⟨2, _⟩ => rfl

end Cert.AttLayout

end
-- ==== Proof.LibRankThree.lean ====
/-
  Rank-three arrays read at an index: the layout operations that add, drop or stretch a unit axis of an
  [a, b, c] array, and its one-axis reductions at the ideal values.

  * casts: [a, b] → [a, b, 1], [a, 1] → [a, 1, 1], [a, c] → [a, 1, c], [c] → [1, 1, c] — each reads the operand at the
    index with the unit coordinates dropped;
  * broadcasts: [a, b, 1] → [a, b, c], [a, 1, 1] → [a, b, 1], [a, 1, c] → [a, b, c], [1, 1, c] → [a, b, c] — each reads
    the operand with the stretched coordinates set to 0;
  * sums at the ideal values: along the last axis ([a, b, c] → [a, b]) and along the middle axis ([a, b, c] → [a, c]),
    each the sum over that axis's coordinate; the maximum along the middle axis of an [a, b, 1] array, a fold of max
    from the accumulator's value.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRankThree

open Idealize.ShloMosaic Idealize.ShloMosaic.ValueIdx

variable {α : Type}

/-! ## Casts that add unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` array cast to `[a, 1, 1]` reads, at `(i, u, u')`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu']; omega)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` array cast to `[1, 1, c]` reads, at `(u, u', k)`, the operand at `k`. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    rw [hu, hu']; omega)

/-! ## Broadcasts along unit axes -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, 1]` array broadcast to `[a, b, 1]` reads, at `(i, j, u)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## One-axis reductions at the ideal values -/

variable {φ : FTy}

/-- The sum of an `[a, b, c]` array along its last axis is, at `(i, j)`, the sum over `k` of the entries `(i, j, k)`. -/
theorem lastSum_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The sum of an `[a, b, c]` array along its middle axis is, at `(i, k)`, the sum over `j` of the entries `(i, j, k)`. -/
theorem midSum_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The maximum of an `[a, b, 1]` array along its middle axis is, at `(i, u)`, the fold of max from the accumulator's
    value over `j` of the entries `(i, j, 0)`. -/
theorem midMax_apply {a b : ℕ} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.maximumf.neutral φ hφ)
    (i : Fin a) (u : Fin 1) :
    multiReduction .maximumf [1] ⟨2, ![a, 1]⟩ src acc h hφ hacc (ix2 i u)
      = (Finset.univ : Finset (Fin b)).fold max (Ideal.ofBits φ acc) (fun j => src (ix3 i j (0 : Fin 1))) := by
  refine (Ideal.multiReduction_maximumf_single src acc h hφ hacc (ix2 i u)).trans ?_
  refine congrArg (fun f => (Finset.univ : Finset (Fin b)).fold max (Ideal.ofBits φ acc) f) (funext fun j => ?_)
  refine congrArg src (funext fun ax => Fin.ext ?_)
  have hu : u.val = 0 := by omega
  match ax with
  | ⟨0, _⟩ => rfl
  | ⟨1, _⟩ => rfl
  | ⟨2, _⟩ => exact hu

end Cert.LibRankThree

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KernelStages.lean ====
/-
  The kernel body's arithmetic, stage by stage, each stage read at an index on the extended reals.

  The body works on one block of 64 batch rows. It flattens (row, item i, item j) into 25600 matrix rows for the
  hidden layer and the scores, folds them back to [64, 20, 20] for the softmax over j, mixes the items with the
  weights by a product batched over the rows, and applies the two affine maps on the 1280 flattened (row, item)
  rows. Each stage below is the body's own term over variables; its lemma says what the stage holds at an index,
  as a sum, a fold of max or a pointwise expression of its operands at indices.
-/
import proofs.«134249_j42984032698946_2_alg».proof.Proof.Gen.KernelIdeal.Skeleton
import proofs.«134249_j42984032698946_2_alg».proof.Proof.Spec
import proofs.«134249_j42984032698946_2_alg».proof.Proof.LibAttLayout
import proofs.«134249_j42984032698946_2_alg».proof.Proof.LibRankThree
import proofs.«134249_j42984032698946_2_alg».proof.Proof.LibPlainDot

noncomputable section

open scoped BigOperators

namespace Cert.KernelIdeal.Stages

open Cert.KernelIdeal Cert.KernelIdeal.Gen Idealize.ShloMosaic Idealize.ShloMosaic.ValueIdx Cert.AttLayout Cert.AttRow

/-! ## The stages as the body spells them -/

/-- The leaky rectifier over an array: the comparison with the zero splat selects x or slope · x. -/
def kRelu {s : Shape} (x : FVec Ideal s .f32) : FVec Ideal s .f32 :=
  select (cmpf .oge x (broadcast s (Scalar.ofBits (F := Ideal) .f32 0x00000000#32))) x
    (mulf (broadcast s (Scalar.ofBits (F := Ideal) .f32 0x3C23D70A#32)) x)

/-- The sums of all pairs of item vectors, one matrix row per (row, i, j). -/
def kPair (v : FVec Ideal S64x20x64 .bf16) : FVec Ideal S25600x64 .bf16 :=
  shapeCast S25600x64
    (addf (broadcastTo S64x20x20x64 (shapeCast S64x20x1x64 v shapeCasts_S64x20x64_S64x20x1x64) broadcasts_S64x20x1x64_S64x20x20x64)
      (broadcastTo S64x20x20x64 (shapeCast S64x1x20x64 v shapeCasts_S64x20x64_S64x1x20x64) broadcasts_S64x1x20x64_S64x20x20x64))
    shapeCasts_S64x20x20x64_S25600x64

/-- The affine map on the 25600 pair rows: the product with the transposed weight matrix plus the bias row. -/
def kLinP (x : FVec Ideal S25600x64 .bf16) (w : FVec Ideal S64x64 .bf16) (bb : Vec Ideal S64 .f32) : FVec Ideal S25600x64 .f32 :=
  addf (matmul dot_S25600x64_S64x64_S25600x64_1_0_0_1_n_n none x (transpose S64x64 [1, 0] w transposes_S64x64_p1_0_S64x64)
      (constant S25600x64 .f32 0x00000000#32))
    (broadcastTo S25600x64 (shapeCast S1x64 bb shapeCasts_S64_S1x64) broadcasts_S1x64_S25600x64)

/-- The scores, flat: each hidden row against the score vector, summed along the row. -/
def kScoreFlat (hd : FVec Ideal S25600x64 .f32) (a3 : Vec Ideal S1x64 .f32) : FVec Ideal S25600 .f32 :=
  multiReduction .add [1] S25600
    (mulf hd (broadcastTo S25600x64 (shapeCast S1x64 (shapeCast S64 a3 shapeCasts_S1x64_S64) shapeCasts_S64_S1x64) broadcasts_S1x64_S25600x64))
    0x00000000#32 reduces_S25600x64_S25600 (.inl rfl) rfl

/-- The largest score of each (row, i), from −∞ and once more against −∞. -/
def kTop (s : FVec Ideal S64x20x20 .f32) : FVec Ideal S64x20 .f32 :=
  maximumf (broadcast S64x20 (Scalar.ofBits (F := Ideal) .f32 0xFF800000#32))
    (multiReduction .maximumf [2] S64x20 s 0xFF800000#32 reduces_S64x20x20_S64x20 (.inl rfl) rfl)

/-- The exponentials of the scores' distances below the largest. -/
def kEx (s : FVec Ideal S64x20x20 .f32) : FVec Ideal S64x20x20 .f32 :=
  exp (subf s (broadcastTo S64x20x20 (shapeCast S64x20x1 (kTop s) shapeCasts_S64x20_S64x20x1) broadcasts_S64x20x1_S64x20x20))

/-- The exponentials over their sum along j. -/
def kWeight (ev : FVec Ideal S64x20x20 .f32) : FVec Ideal S64x20x20 .f32 :=
  divf ev (broadcastTo S64x20x20
    (shapeCast S64x20x1 (multiReduction .add [2] S64x20 ev 0x00000000#32 reduces_S64x20x20_S64x20 (.inl rfl) rfl) shapeCasts_S64x20_S64x20x1)
    broadcasts_S64x20x1_S64x20x20)

/-- The items mixed with the weights: a product batched over the 64 rows. -/
def kMix (w : FVec Ideal S64x20x20 .f32) (v : FVec Ideal S64x20x64 .bf16) : FVec Ideal S64x20x64 .f32 :=
  matmul dot_S64x20x20_S64x20x64_S64x20x64_2_1_1_2_0_0 none (truncf .bf16 w bitsLt_bf16_f32) v (constant S64x20x64 .f32 0x00000000#32)

/-- An affine map on the 1280 flattened (row, item) rows, folded back to [64, 20, 64]. -/
def kLin3 (x : FVec Ideal S64x20x64 .f32) (w : FVec Ideal S64x64 .bf16) (bb : Vec Ideal S64 .f32) : FVec Ideal S64x20x64 .f32 :=
  shapeCast S64x20x64
    (addf (matmul dot_S1280x64_S64x64_S1280x64_1_0_0_1_n_n none
        (truncf .bf16 (shapeCast S1280x64 x shapeCasts_S64x20x64_S1280x64) bitsLt_bf16_f32)
        (transpose S64x64 [1, 0] w transposes_S64x64_p1_0_S64x64) (constant S1280x64 .f32 0x00000000#32))
      (broadcastTo S1280x64 (shapeCast S1x64 bb shapeCasts_S64_S1x64) broadcasts_S1x64_S1280x64))
    shapeCasts_S1280x64_S64x20x64

/-- The flat scores: what the first half of the body hands to the second. -/
theorem pay5_eq (v1 : Vec Ideal S64x20x64 .f32) (v2 : Vec Ideal S64x64 .f32) (v3 : Vec Ideal S64 .f32) (v4 : Vec Ideal S1x64 .f32) :
    k0_pay5 (F := Ideal) v1 v2 v3 v4
      = kScoreFlat (kRelu (kLinP (kPair (truncf .bf16 v1 bitsLt_bf16_f32)) (truncf .bf16 v2 bitsLt_bf16_f32) v3)) v4 := rfl

/-- The stored value: the second half of the body over the flat scores. -/
theorem pay1_eq (v0 : Vec Ideal S64x1x64 .f32) (v1 : Vec Ideal S64x20x64 .f32) (v7 : Vec Ideal S64 .f32) (v9 : Vec Ideal S64 .f32)
    (v10 : FVec Ideal S64x20x64 .bf16) (v12 : FVec Ideal S64x64 .bf16) (v13 : FVec Ideal S64x64 .bf16)
    (v34 : FVec Ideal S25600 .f32) (v36 : FVec Ideal S25600 .f32) :
    k0_pay1 (F := Ideal) v0 v1 v7 v9 v10 v12 v13 v34 v36
      = kRelu (addf (mulf (broadcastTo S64x20x64 v0 broadcasts_S64x1x64_S64x20x64) v1)
          (kLin3 (addf (kLin3 (kMix (kWeight (kEx (shapeCast S64x20x20 (addf v34 v36) shapeCasts_S25600_S64x20x20))) v10) v12 v7) v1) v13 v9)) := rfl

end Cert.KernelIdeal.Stages

end
-- ==== Proof.KernelRead.lean ====
/-
  Each stage of the kernel body read at an index.
-/
import proofs.«134249_j42984032698946_2_alg».proof.Proof.KernelStages

noncomputable section

open scoped BigOperators

namespace Cert.KernelIdeal.Stages

open Cert.KernelIdeal Cert.KernelIdeal.Gen Idealize.ShloMosaic Idealize.ShloMosaic.ValueIdx Cert.AttLayout Cert.AttRow

/-- The rectifier is pointwise. -/
theorem kRelu_apply {s : Shape} (x : FVec Ideal s .f32) (y : s.Idx) : kRelu x y = lrelu (x y) := rfl

/-- A pair row holds the sum of its two item vectors. -/
theorem kPair_apply (v : FVec Ideal S64x20x64 .bf16) (b : Fin 64) (i j : Fin 20) (d : Fin 64) (r : Fin 25600)
    (hr : r.val = (b.val * 20 + i.val) * 20 + j.val) :
    kPair v (ix2 r d) = v (ix3 b i d) + v (ix3 b j d) := by
  unfold kPair
  refine (cast_4_2 _ shapeCasts_S64x20x20x64_S25600x64 b i j d r hr).trans ?_
  refine (addf_apply _ _ _).trans ?_
  rw [spread_4_mid, spread_4_front, cast_3_4_mid, cast_3_4_front]

/-- The affine map on the pair rows: entry (r, o) is the row against row o of the weight matrix, plus the bias. -/
theorem kLinP_apply (x : FVec Ideal S25600x64 .bf16) (w : FVec Ideal S64x64 .bf16) (bb : Vec Ideal S64 .f32)
    (r : Fin 25600) (o : Fin 64) :
    kLinP x w bb (ix2 r o) = (∑ d : Fin 64, x (ix2 r d) * w (ix2 o d)) + bb (ix1 o) := by
  unfold kLinP
  refine (addf_apply _ _ _).trans ?_
  refine congrArg₂ (· + ·) ?_ ?_
  · refine (PlainDot.matmul_zero_apply 25600 64 64 none x _ r o).trans ?_
    refine Finset.sum_congr rfl fun d _ => congrArg (x (ix2 r d) * ·) ?_
    exact transpose_ix2_apply w transposes_S64x64_p1_0_S64x64 d o
  · exact row_spread bb shapeCasts_S64_S1x64 broadcasts_S1x64_S25600x64 r o

/-- A flat score is the hidden row against the score vector. -/
theorem kScoreFlat_apply (hd : FVec Ideal S25600x64 .f32) (a3 : Vec Ideal S1x64 .f32) (r : Fin 25600) :
    kScoreFlat hd a3 (ix1 r) = ∑ o : Fin 64, hd (ix2 r o) * a3 (ix2 (0 : Fin 1) o) := by
  unfold kScoreFlat
  refine (rowSum_apply _ _ reduces_S25600x64_S25600 _ _ r).trans ?_
  refine Finset.sum_congr rfl fun o _ => ?_
  refine (mulf_apply _ _ _).trans (congrArg (hd (ix2 r o) * ·) ?_)
  refine (row_spread _ shapeCasts_S64_S1x64 broadcasts_S1x64_S25600x64 r o).trans ?_
  exact shapeCast_1a_a_apply a3 shapeCasts_S1x64_S64 o

/-- The largest score of (row b, item i) is the spec's, of that row of scores. -/
theorem kTop_apply (s : FVec Ideal S64x20x20 .f32) (b : Fin 64) (i : Fin 20) :
    kTop s (ix2 b i) = top (fun j => s (ix3 b i j)) := by
  unfold kTop top
  refine (maximumf_apply _ _ _).trans ?_
  refine congrArg₂ max rfl ?_
  exact lastMax_apply s 0xFF800000#32 reduces_S64x20x20_S64x20 _ _ b i

/-- The exponential stage at (b, i, j). -/
theorem kEx_apply (s : FVec Ideal S64x20x20 .f32) (b : Fin 64) (i j : Fin 20) :
    kEx s (ix3 b i j) = ex (fun j => s (ix3 b i j)) j := by
  unfold kEx ex
  show Ideal.exp (s (ix3 b i j) - broadcastTo S64x20x20 (shapeCast S64x20x1 (kTop s) shapeCasts_S64x20_S64x20x1) broadcasts_S64x20x1_S64x20x20 (ix3 b i j)) = _
  rw [LibRankThree.broadcastTo_ab1_abc_apply, LibRankThree.shapeCast_ab_ab1_apply, kTop_apply]

/-- The weight stage at (b, i, j), over any array of exponentials. -/
theorem kWeight_apply (ev : FVec Ideal S64x20x20 .f32) (b : Fin 64) (i j : Fin 20) :
    kWeight ev (ix3 b i j) = Ideal.div (ev (ix3 b i j)) (∑ k : Fin 20, ev (ix3 b i k)) := by
  unfold kWeight
  refine (divf_apply _ _ _).trans (congrArg (Ideal.div (ev (ix3 b i j))) ?_)
  rw [LibRankThree.broadcastTo_ab1_abc_apply, LibRankThree.shapeCast_ab_ab1_apply]
  exact LibRankThree.lastSum_apply ev 0x00000000#32 reduces_S64x20x20_S64x20 _ _ b i

/-- The weights of (b, i) are the spec's softmax of that row of scores. -/
theorem kWeight_kEx_apply (s : FVec Ideal S64x20x20 .f32) (b : Fin 64) (i j : Fin 20) :
    kWeight (kEx s) (ix3 b i j) = weight (fun j => s (ix3 b i j)) j := by
  rw [kWeight_apply]
  unfold weight
  rw [kEx_apply]
  exact congrArg (Ideal.div _) (Finset.sum_congr rfl fun k _ => kEx_apply s b i k)

end Cert.KernelIdeal.Stages

end
-- ==== Proof.KernelMix.lean ====
/-
  The two matrix stages of the second half of the body read at an index: the mixture, a product batched over the
  64 rows of the block, and the affine maps on the 1280 flattened (row, item) rows.
-/
import proofs.«134249_j42984032698946_2_alg».proof.Proof.KernelStages

noncomputable section

open scoped BigOperators

namespace Cert.KernelIdeal.Stages

open Cert.KernelIdeal Cert.KernelIdeal.Gen Idealize.ShloMosaic Idealize.ShloMosaic.ValueIdx Cert.AttLayout Cert.AttRow

/-- The batched product's left operand at result (b, i, d) and contraction position k is (b, i, k). -/
theorem mix_lhsIdx (b : Fin 64) (i : Fin 20) (d : Fin 64) (k : Fin 20) :
    dot_S64x20x20_S64x20x64_S64x20x64_2_1_1_2_0_0.lhsIdx (ix3 b i d)
        ((contrEquiv1 dot_S64x20x20_S64x20x64_S64x20x64_2_1_1_2_0_0 20 rfl rfl).symm k) = ix3 b i k := by
  have hk := contrEquiv1_symm_val dot_S64x20x20_S64x20x64_S64x20x64_2_1_1_2_0_0 20 rfl rfl k
  funext a
  refine Fin.ext ?_
  match a with
  | ⟨0, _⟩ => rfl
  | ⟨1, _⟩ => rfl
  | ⟨2, _⟩ => exact (dot_S64x20x20_S64x20x64_S64x20x64_2_1_1_2_0_0.lhsIdx_val_of_single rfl (ix3 b i d) _).trans hk

/-- Its right operand there is (b, k, d). -/
theorem mix_rhsIdx (b : Fin 64) (i : Fin 20) (d : Fin 64) (k : Fin 20) :
    dot_S64x20x20_S64x20x64_S64x20x64_2_1_1_2_0_0.rhsIdx (ix3 b i d)
        ((contrEquiv1 dot_S64x20x20_S64x20x64_S64x20x64_2_1_1_2_0_0 20 rfl rfl).symm k) = ix3 b k d := by
  have hk := contrEquiv1_symm_val dot_S64x20x20_S64x20x64_S64x20x64_2_1_1_2_0_0 20 rfl rfl k
  funext a
  refine Fin.ext ?_
  match a with
  | ⟨0, _⟩ => rfl
  | ⟨1, _⟩ => exact (dot_S64x20x20_S64x20x64_S64x20x64_2_1_1_2_0_0.rhsIdx_val_of_single rfl (ix3 b i d) _).trans hk
  | ⟨2, _⟩ => rfl

/-- The mixture at (b, i, d): the weights of (b, i) against coordinate d of the items of row b. -/
theorem kMix_apply (w : FVec Ideal S64x20x20 .f32) (v : FVec Ideal S64x20x64 .bf16) (b : Fin 64) (i : Fin 20) (d : Fin 64) :
    kMix w v (ix3 b i d) = ∑ j : Fin 20, w (ix3 b i j) * v (ix3 b j d) := by
  unfold kMix
  refine (Ideal.matmul_constant_zero_apply dot_S64x20x20_S64x20x64_S64x20x64_2_1_1_2_0_0 none _ v (ix3 b i d)).trans ?_
  rw [← Equiv.sum_comp (contrEquiv1 dot_S64x20x20_S64x20x64_S64x20x64_2_1_1_2_0_0 20 rfl rfl).symm]
  refine Finset.sum_congr rfl fun k _ => ?_
  rw [mix_lhsIdx, mix_rhsIdx]
  rfl

/-- An affine map on the flattened rows, folded back: entry (b, i, o) is item-row (b, i) of the operand against
    row o of the weight matrix, plus the bias. -/
theorem kLin3_apply (x : FVec Ideal S64x20x64 .f32) (w : FVec Ideal S64x64 .bf16) (bb : Vec Ideal S64 .f32)
    (b : Fin 64) (i : Fin 20) (o : Fin 64) :
    kLin3 x w bb (ix3 b i o) = (∑ d : Fin 64, x (ix3 b i d) * w (ix2 o d)) + bb (ix1 o) := by
  unfold kLin3
  have hr : (⟨b.val * 20 + i.val, by have := b.isLt; have := i.isLt; omega⟩ : Fin 1280).val = b.val * 20 + i.val := rfl
  refine (cast_2_3 _ shapeCasts_S1280x64_S64x20x64 b i o ⟨b.val * 20 + i.val, by have := b.isLt; have := i.isLt; omega⟩ hr).trans ?_
  refine (addf_apply _ _ _).trans ?_
  refine congrArg₂ (· + ·) ?_ ?_
  · refine (PlainDot.matmul_zero_apply 1280 64 64 none _ _ _ o).trans ?_
    refine Finset.sum_congr rfl fun d _ => congrArg₂ (· * ·) ?_ ?_
    · exact cast_3_2 x shapeCasts_S64x20x64_S1280x64 b i d _ hr
    · exact transpose_ix2_apply w transposes_S64x64_p1_0_S64x64 d o
  · exact row_spread bb shapeCasts_S64_S1x64 broadcasts_S1x64_S1280x64 _ o

end Cert.KernelIdeal.Stages

end
-- ==== Proof.KernelBlock.lean ====
/-
  The stored block at an index: for one batch row of the block, the body's stored value at (item i, coordinate o) is
  the row function of that row's 21 vectors and the weight arrays.
-/
import proofs.«134249_j42984032698946_2_alg».proof.Proof.KernelRead
import proofs.«134249_j42984032698946_2_alg».proof.Proof.KernelMix

noncomputable section

open scoped BigOperators

namespace Cert.KernelIdeal.Stages

open Cert.KernelIdeal Cert.KernelIdeal.Gen Idealize.ShloMosaic Idealize.ShloMosaic.ValueIdx Cert.AttLayout Cert.AttRow

section Block

variable (v0 : Vec Ideal S64x1x64 .f32) (v1 : Vec Ideal S64x20x64 .f32) (v2 v6 v8 : Vec Ideal S64x64 .f32)
  (v3 v7 v9 : Vec Ideal S64 .f32) (v4 : Vec Ideal S1x64 .f32) (v5 : Vec Ideal S1 .f32)
  (e : Fin 21 → Fin 64 → EReal) (b : Fin 64)

/-- The bias of the scores, spread over the flat rows, is the one number. -/
theorem pay6_apply (r : Fin 25600) : k0_pay6 (F := Ideal) v5 (ix1 r) = v5 (ix1 (0 : Fin 1)) := by
  unfold k0_pay6
  show extractAt ![0] v5 inpos_S1_p0 = v5 (ix1 (0 : Fin 1))
  unfold extractAt
  exact congrArg v5 (funext fun a => match a with | ⟨0, _⟩ => rfl)

/-- The hidden row of the pair (i, j) of row b. -/
theorem hid_apply (hv1 : ∀ i d, v1 (ix3 b i d) = item e i d) (i j : Fin 20) (o : Fin 64) (r : Fin 25600)
    (hr : r.val = (b.val * 20 + i.val) * 20 + j.val) :
    kRelu (kLinP (kPair (truncf .bf16 v1 bitsLt_bf16_f32)) (truncf .bf16 v2 bitsLt_bf16_f32) v3) (ix2 r o)
      = hid e (fun o d => v2 (ix2 o d)) (fun o => v3 (ix1 o)) i j o := by
  rw [kRelu_apply, kLinP_apply]
  unfold hid
  refine congrArg lrelu (congrArg (· + v3 (ix1 o)) (Finset.sum_congr rfl fun d _ => ?_))
  refine congrArg₂ (· * ·) ?_ rfl
  rw [kPair_apply _ b i j d r hr]
  exact congrArg₂ (· + ·) (hv1 i d) (hv1 j d)

/-- The score of the pair (i, j) of row b, after the flat scores are folded back to [64, 20, 20]. -/
theorem score_apply (hv1 : ∀ i d, v1 (ix3 b i d) = item e i d) (i j : Fin 20) :
    shapeCast S64x20x20 (addf (k0_pay5 (F := Ideal) v1 v2 v3 v4) (k0_pay6 (F := Ideal) v5)) shapeCasts_S25600_S64x20x20 (ix3 b i j)
      = score e (fun o d => v2 (ix2 o d)) (fun o => v3 (ix1 o)) (fun o => v4 (ix2 (0 : Fin 1) o)) (v5 (ix1 (0 : Fin 1))) i j := by
  have hlt : (b.val * 20 + i.val) * 20 + j.val < 25600 := by have := b.isLt; have := i.isLt; have := j.isLt; omega
  refine (cast_1_3 _ shapeCasts_S25600_S64x20x20 b i j ⟨(b.val * 20 + i.val) * 20 + j.val, hlt⟩ rfl).trans ?_
  refine (addf_apply _ _ _).trans ?_
  unfold score
  refine congrArg₂ (· + ·) ?_ (pay6_apply v5 _)
  rw [pay5_eq, kScoreFlat_apply]
  exact Finset.sum_congr rfl fun o _ => congrArg (· * v4 (ix2 (0 : Fin 1) o)) (hid_apply v1 v2 v3 e b hv1 i j o _ rfl)

/-- The stored value at (b, i, o) is the row function of row b. -/
theorem pay_apply (hv0 : ∀ d, v0 (ix3 b (0 : Fin 1) d) = e 0 d) (hv1 : ∀ i d, v1 (ix3 b i d) = item e i d) (i : Fin 20) (o : Fin 64) :
    k0_pay1 (F := Ideal) v0 v1 v7 v9 (k0_pay2 v1) (k0_pay3 v6) (k0_pay4 v8) (k0_pay5 v1 v2 v3 v4) (k0_pay6 v5) (ix3 b i o)
      = out e (fun o d => v2 (ix2 o d)) (fun o => v3 (ix1 o)) (fun o => v4 (ix2 (0 : Fin 1) o)) (v5 (ix1 (0 : Fin 1)))
          (fun o d => v6 (ix2 o d)) (fun o => v7 (ix1 o)) (fun o d => v8 (ix2 o d)) (fun o => v9 (ix1 o)) i o := by
  rw [pay1_eq, kRelu_apply]
  unfold out
  refine congrArg lrelu ?_
  refine (addf_apply _ _ _).trans (congrArg₂ (· + ·) ?_ ?_)
  · refine (mulf_apply _ _ _).trans (congrArg₂ (· * ·) ?_ (hv1 i o))
    exact (LibRankThree.broadcastTo_a1c_abc_apply v0 broadcasts_S64x1x64_S64x20x64 b i o).trans (hv0 o)
  · rw [kLin3_apply]
    unfold lin2
    refine congrArg (· + v9 (ix1 o)) (Finset.sum_congr rfl fun d _ => congrArg₂ (· * ·) ?_ rfl)
    refine (addf_apply _ _ _).trans (congrArg₂ (· + ·) ?_ (hv1 i d))
    rw [kLin3_apply]
    unfold lin1
    refine congrArg (· + v7 (ix1 d)) (Finset.sum_congr rfl fun d' _ => congrArg₂ (· * ·) ?_ rfl)
    rw [kMix_apply]
    unfold mix
    refine Finset.sum_congr rfl fun j _ => congrArg₂ (· * ·) ?_ (hv1 j d')
    rw [kWeight_kEx_apply]
    exact congrArg (fun s => weight s j) (funext fun j' => score_apply v1 v2 v3 v4 v5 e b hv1 i j')

end Block

end Cert.KernelIdeal.Stages

end
-- ==== Proof.KernelValue.lean ====
/-
  From the blocks to the array: after the run the result array holds, at (b, i, o), the row function of batch row b.

  Grid point t works on rows 64·t … 64·t + 63: the embeddings' block and the result's block move together along
  the batch axis, and every weight array is one whole block at every point. So what point t writes back is block t
  of the whole-array function, and the 64 blocks cover the 4096 rows.
-/
import proofs.«134249_j42984032698946_2_alg».proof.Proof.Gen.KernelIdeal.Value
import proofs.«134249_j42984032698946_2_alg».proof.Proof.KernelBlock

noncomputable section

open scoped BigOperators

namespace Cert.KernelIdeal.RowValue

open Cert.KernelIdeal Cert.KernelIdeal.Gen Idealize.ShloMosaic Idealize.ShloMosaic.TcCoe Idealize.SL.Sem
open Idealize.ShloMosaic.Pipeline (Dat)
open Idealize.ShloMosaic.ValueIdx Cert.AttRow Cert.KernelIdeal.Stages

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The user's slot of the loaded block: slot 0 of each row. -/
theorem ld_user (x0 : Vec Ideal S64x21x64 .f32) (b : Fin 64) (d : Fin 64) :
    View.ld x0 r0_0 (ix3 b (0 : Fin 1) d) = x0 (ix3 b (0 : Fin 21) d) := by
  show x0 (r0_0.emb (ix3 b (0 : Fin 1) d)) = _
  refine congrArg x0 (funext fun a => Fin.ext ?_)
  match a with
  | ⟨0, _⟩ => show 0 + 1 * b.val = b.val; omega
  | ⟨1, _⟩ => show 0 + 1 * 0 = 0; rfl
  | ⟨2, _⟩ => show 0 + 1 * d.val = d.val; omega

/-- The items' slots of the loaded block: slot i + 1 of each row. -/
theorem ld_items (x0 : Vec Ideal S64x21x64 .f32) (b : Fin 64) (i : Fin 20) (d : Fin 64) :
    View.ld x0 r0_1 (ix3 b i d) = item (fun n d => x0 (ix3 b n d)) i d := by
  show x0 (r0_1.emb (ix3 b i d)) = x0 (ix3 b ⟨i.val + 1, by omega⟩ d)
  refine congrArg x0 (funext fun a => Fin.ext ?_)
  match a with
  | ⟨0, _⟩ => show 0 + 1 * b.val = b.val; omega
  | ⟨1, _⟩ => show 1 + 1 * i.val = i.val + 1; omega
  | ⟨2, _⟩ => show 0 + 1 * d.val = d.val; omega

/-- What the body leaves in the result's buffer, at (b, i, o): the row function of row b of the embeddings' block. -/
theorem out_apply (x0 : Vec Ideal S64x21x64 .f32) (x1 : Vec Ideal S64x64 .f32) (x2 : Vec Ideal S64 .f32) (x3 : Vec Ideal S1x64 .f32)
    (x4 : Vec Ideal S1 .f32) (x5 : Vec Ideal S64x64 .f32) (x6 : Vec Ideal S64 .f32) (x7 : Vec Ideal S64x64 .f32) (x8 : Vec Ideal S64 .f32)
    (b : Fin 64) (i : Fin 20) (o : Fin 64) :
    out0_9 x0 x1 x2 x3 x4 x5 x6 x7 x8 (ix3 b i o)
      = out (fun n d => x0 (ix3 b n d)) (fun o d => x1 (ix2 o d)) (fun o => x2 (ix1 o)) (fun o => x3 (ix2 (0 : Fin 1) o))
          (x4 (ix1 (0 : Fin 1))) (fun o d => x5 (ix2 o d)) (fun o => x6 (ix1 o)) (fun o d => x7 (ix2 o d)) (fun o => x8 (ix1 o)) i o := by
  unfold out0_9
  rw [View.canon_unit_zero hz3]
  simp only [View.ld_unit_zero (S := S64x64) hz2, View.ld_unit_zero (S := S64) hz1, View.ld_unit_zero (S := S1x64) hz2,
    View.ld_unit_zero (S := S1) hz1]
  exact pay_apply (View.ld x0 r0_0) (View.ld x0 r0_1) x1 x5 x7 x2 x6 x8 x3 x4 (fun n d => x0 (ix3 b n d)) b
    (fun d => ld_user x0 b d) (fun i d => ld_items x0 b i d) i o

variable (m : (ℓ : Loc nD τ sig) → Buf (Elt Ideal) ℓ) (ρ : Dev nD → PrngReg)

/-- The printed index maps, decided over the 64 grid points: the embeddings' and the result's blocks sit at the same
    place on the batch axis and at 0 on the others; every weight array's block is at 0. -/
theorem idx_facts : ∀ t : Fin cfg0.N, win0_0.index t (0 : Fin 3) = win0_9.index t (0 : Fin 3)
    ∧ win0_0.index t (1 : Fin 3) = 0 ∧ win0_0.index t (2 : Fin 3) = 0
    ∧ win0_9.index t (1 : Fin 3) = 0 ∧ win0_9.index t (2 : Fin 3) = 0 ∧ win0_9.index t (0 : Fin 3) ≤ 63
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Every one of the 64 row blocks is some point's. -/
theorem idx_onto : ∀ q : Fin 64, ∃ t : Fin cfg0.N, win0_9.index t = ![q.val, 0, 0] :=
  (by decide +kernel : ∀ q : Fin 64, ∃ t : Fin grid0.N, win0_9.index t = ![q.val, 0, 0])

/-- What point t writes back is block t of the whole-array function of the argument arrays. -/
theorem flushed_eq (c : Dev nD) (t : Fin cfg0.N) :
    (dats m 0 c).flushed 9 t = ((cfg0.win 9).blk t).view.read (Elt Ideal)
      (G (V m c main_arg0) (V m c main_arg1) (V m c main_arg2) (V m c main_arg3) (V m c main_arg4) (V m c main_arg5)
        (V m c main_arg6) (V m c main_arg7) (V m c main_arg8)) := by
  rw [Cert.KernelIdeal.Value.flushed9]
  obtain ⟨e0, e1, e2, e3, e4, e5, f10, f11, f20, f30, f31, f40, f50, f51, f60, f70, f71, f80⟩ := idx_facts t
  funext j
  obtain ⟨p, i, o, rfl⟩ : ∃ (p : Fin 64) (i : Fin 20) (o : Fin 64), j = ix3 p i o := ⟨j 0, j 1, j 2, eq_ix3 j⟩
  have hq : win0_9.index t (0 : Fin 3) * 64 + p.val < 4096 := by have := p.isLt; omega
  show out0_9 (iblk m c 0 t) (iblk m c 1 t) (iblk m c 2 t) (iblk m c 3 t) (iblk m c 4 t) (iblk m c 5 t) (iblk m c 6 t)
      (iblk m c 7 t) (iblk m c 8 t) (ix3 p i o)
    = G (V m c main_arg0) (V m c main_arg1) (V m c main_arg2) (V m c main_arg3) (V m c main_arg4) (V m c main_arg5)
        (V m c main_arg6) (V m c main_arg7) (V m c main_arg8) (((cfg0.win 9).blk t).view.emb (ix3 p i o))
  have hemb : ((cfg0.win 9).blk t).view.emb (ix3 p i o)
      = ix3 (⟨win0_9.index t (0 : Fin 3) * 64 + p.val, hq⟩ : Fin 4096) i o := by
    funext a; apply Fin.ext
    match a with
    | ⟨0, _⟩ => show win0_9.index t (0 : Fin 3) * 64 + 1 * p.val = win0_9.index t (0 : Fin 3) * 64 + p.val; omega
    | ⟨1, _⟩ => show win0_9.index t (1 : Fin 3) * 20 + 1 * i.val = i.val; omega
    | ⟨2, _⟩ => show win0_9.index t (2 : Fin 3) * 64 + 1 * o.val = o.val; omega
  rw [hemb, G_apply]
  refine (out_apply (iblk m c 0 t) (iblk m c 1 t) (iblk m c 2 t) (iblk m c 3 t) (iblk m c 4 t) (iblk m c 5 t) (iblk m c 6 t)
      (iblk m c 7 t) (iblk m c 8 t) p i o).trans ?_
  have h0 : (fun (n : Fin 21) (d : Fin 64) => iblk m c 0 t (ix3 p n d))
      = fun n d => V m c main_arg0 (ix3 (⟨win0_9.index t (0 : Fin 3) * 64 + p.val, hq⟩ : Fin 4096) n d) := by
    funext n d
    show V m c main_arg0 (((cfg0.win 0).blk t).view.emb (ix3 p n d)) = _
    refine congrArg (V m c main_arg0) (funext fun a => Fin.ext ?_)
    match a with
    | ⟨0, _⟩ => show win0_0.index t (0 : Fin 3) * 64 + 1 * p.val = win0_9.index t (0 : Fin 3) * 64 + p.val; omega
    | ⟨1, _⟩ => show win0_0.index t (1 : Fin 3) * 21 + 1 * n.val = n.val; omega
    | ⟨2, _⟩ => show win0_0.index t (2 : Fin 3) * 64 + 1 * d.val = d.val; omega
  have h1 : (fun (o : Fin 64) (d : Fin 64) => iblk m c 1 t (ix2 o d)) = fun o d => V m c main_arg1 (ix2 o d) := by
    funext o d
    show V m c main_arg1 (((cfg0.win 1).blk t).view.emb (ix2 o d)) = _
    refine congrArg (V m c main_arg1) (funext fun a => Fin.ext ?_)
    match a with
    | ⟨0, _⟩ => show win0_1.index t (0 : Fin 2) * 64 + 1 * o.val = o.val; omega
    | ⟨1, _⟩ => show win0_1.index t (1 : Fin 2) * 64 + 1 * d.val = d.val; omega
  have h2 : (fun (o : Fin 64) => iblk m c 2 t (ix1 o)) = fun o => V m c main_arg2 (ix1 o) := by
    funext o
    show V m c main_arg2 (((cfg0.win 2).blk t).view.emb (ix1 o)) = _
    refine congrArg (V m c main_arg2) (funext fun a => Fin.ext ?_)
    match a with
    | ⟨0, _⟩ => show win0_2.index t (0 : Fin 1) * 64 + 1 * o.val = o.val; omega
  have h3 : (fun (o : Fin 64) => iblk m c 3 t (ix2 (0 : Fin 1) o)) = fun o => V m c main_arg3 (ix2 (0 : Fin 1) o) := by
    funext o
    show V m c main_arg3 (((cfg0.win 3).blk t).view.emb (ix2 (0 : Fin 1) o)) = _
    refine congrArg (V m c main_arg3) (funext fun a => Fin.ext ?_)
    match a with
    | ⟨0, _⟩ => show win0_3.index t (0 : Fin 2) * 1 + 1 * 0 = 0; omega
    | ⟨1, _⟩ => show win0_3.index t (1 : Fin 2) * 64 + 1 * o.val = o.val; omega
  have h4 : iblk m c 4 t (ix1 (0 : Fin 1)) = V m c main_arg4 (ix1 (0 : Fin 1)) := by
    show V m c main_arg4 (((cfg0.win 4).blk t).view.emb (ix1 (0 : Fin 1))) = _
    refine congrArg (V m c main_arg4) (funext fun a => Fin.ext ?_)
    match a with
    | ⟨0, _⟩ => show win0_4.index t (0 : Fin 1) * 1 + 1 * 0 = 0; omega
  have h5 : (fun (o : Fin 64) (d : Fin 64) => iblk m c 5 t (ix2 o d)) = fun o d => V m c main_arg5 (ix2 o d) := by
    funext o d
    show V m c main_arg5 (((cfg0.win 5).blk t).view.emb (ix2 o d)) = _
    refine congrArg (V m c main_arg5) (funext fun a => Fin.ext ?_)
    match a with
    | ⟨0, _⟩ => show win0_5.index t (0 : Fin 2) * 64 + 1 * o.val = o.val; omega
    | ⟨1, _⟩ => show win0_5.index t (1 : Fin 2) * 64 + 1 * d.val = d.val; omega
  have h6 : (fun (o : Fin 64) => iblk m c 6 t (ix1 o)) = fun o => V m c main_arg6 (ix1 o) := by
    funext o
    show V m c main_arg6 (((cfg0.win 6).blk t).view.emb (ix1 o)) = _
    refine congrArg (V m c main_arg6) (funext fun a => Fin.ext ?_)
    match a with
    | ⟨0, _⟩ => show win0_6.index t (0 : Fin 1) * 64 + 1 * o.val = o.val; omega
  have h7 : (fun (o : Fin 64) (d : Fin 64) => iblk m c 7 t (ix2 o d)) = fun o d => V m c main_arg7 (ix2 o d) := by
    funext o d
    show V m c main_arg7 (((cfg0.win 7).blk t).view.emb (ix2 o d)) = _
    refine congrArg (V m c main_arg7) (funext fun a => Fin.ext ?_)
    match a with
    | ⟨0, _⟩ => show win0_7.index t (0 : Fin 2) * 64 + 1 * o.val = o.val; omega
    | ⟨1, _⟩ => show win0_7.index t (1 : Fin 2) * 64 + 1 * d.val = d.val; omega
  have h8 : (fun (o : Fin 64) => iblk m c 8 t (ix1 o)) = fun o => V m c main_arg8 (ix1 o) := by
    funext o
    show V m c main_arg8 (((cfg0.win 8).blk t).view.emb (ix1 o)) = _
    refine congrArg (V m c main_arg8) (funext fun a => Fin.ext ?_)
    match a with
    | ⟨0, _⟩ => show win0_8.index t (0 : Fin 1) * 64 + 1 * o.val = o.val; omega
  rw [h0, h1, h2, h3, h4, h5, h6, h7, h8]

/-- An index of the result array is in point t's block iff each coordinate is in the block's range on its axis. -/
theorem mem_blk (t : Fin cfg0.N) (i : S4096x20x64.Idx) :
    i ∈ ((cfg0.win 9).blk t).view.set ↔ ∀ a : Fin 3, win0_9.index t a * S64x20x64.size a ≤ (i a).val
      ∧ (i a).val < win0_9.index t a * S64x20x64.size a + S64x20x64.size a := by
  show i ∈ ((View.whole main_v0).slice (win0_9.rect t)).set ↔ _
  rw [View.set_slice_whole, Rect.mem_set_unit]
  exact Iff.rfl

/-- The 64 row blocks cover the result array: row r lies in block r / 64. -/
theorem cover (i : S4096x20x64.Idx) : ∃ t : Fin cfg0.N, (cfg0.win 9).flush t = true ∧ i ∈ ((cfg0.win 9).blk t).view.set := by
  have hi0 : (i 0).val < 4096 := (i 0).isLt
  have hi1 : (i 1).val < 20 := (i 1).isLt
  have hi2 : (i 2).val < 64 := (i 2).isLt
  obtain ⟨t, ht⟩ := idx_onto ⟨(i 0).val / 64, by omega⟩
  have q0 : win0_9.index t (0 : Fin 3) = (i 0).val / 64 := congrFun ht 0
  have q1 : win0_9.index t (1 : Fin 3) = 0 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 64 ≤ (i 0).val ∧ (i 0).val < win0_9.index t (0 : Fin 3) * 64 + 64; omega
  | ⟨1, _⟩ => show win0_9.index t (1 : Fin 3) * 20 ≤ (i 1).val ∧ (i 1).val < win0_9.index t (1 : Fin 3) * 20 + 20; omega
  | ⟨2, _⟩ => show win0_9.index t (2 : Fin 3) * 64 ≤ (i 2).val ∧ (i 2).val < win0_9.index t (2 : Fin 3) * 64 + 64; omega

/-- The result array after the run is the whole-array function of the argument arrays. -/
theorem final (c : Dev nD) : (dats m 0 c).arrAt 9 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (dats m 0 c).arrAt_eq_of_cover 9 _ (fun t _ => flushed_eq m c t) cover

/-- The kernel's run with the result array named as that function, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.RowValue

end
-- ==== Proof.RefRun.lean ====
/-
  The reference program's @main as a straight line of its sixty-one host operations, the two calls of the leaky
  rectifier written out at their call sites over the calls' own buffers (the constant zero, its broadcast, the
  comparison, the constant slope, its broadcast, the product, the select), and its run: every buffer ends at the
  operations' fold over the launch contents.
-/
import proofs.«134249_j42984032698946_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's seven written where the call stands. -/
abbrev ops : List (HloOp τ sig (Elt F)) :=
  [ unary main_arg0 main_v0 ((extractStridedSlice S4096x1x64 ![0, 0, 0] · slices_S4096x21x64_S4096x1x64_0_0_0) : (⟨S4096x21x64, .f32⟩ : BufTy).Contents (Elt F) → (⟨S4096x1x64, .f32⟩ : BufTy).Contents (Elt F)),
    unary main_arg0 main_v1 ((extractStridedSlice S4096x20x64 ![0, 1, 0] · slices_S4096x21x64_S4096x20x64_0_1_0) : (⟨S4096x21x64, .f32⟩ : BufTy).Contents (Elt F) → (⟨S4096x20x64, .f32⟩ : BufTy).Contents (Elt F)),
    unary main_v0 main_v2 (broadcastInDim S4096x20x64 ![0, 1, 2] bcast_S4096x1x64_S4096x20x64_0_1_2 : (⟨S4096x1x64, .f32⟩ : BufTy).Contents (Elt F) → (⟨S4096x20x64, .f32⟩ : BufTy).Contents (Elt F)),
    binary main_v2 main_v1 main_v3 (mulf : (⟨S4096x20x64, .f32⟩ : BufTy).Contents (Elt F) → (⟨S4096x20x64, .f32⟩ : BufTy).Contents (Elt F) → (⟨S4096x20x64, .f32⟩ : BufTy).Contents (Elt F)),
    unary main_v1 main_v4 (broadcastInDim S4096x20x1x64 ![0, 1, 3] bcast_S4096x20x64_S4096x20x1x64_0_1_3 : (⟨S4096x20x64, .f32⟩ : BufTy).Contents (Elt F) → (⟨S4096x20x1x64, .f32⟩ : BufTy).Contents (Elt F)),
    unary main_v1 main_v5 (broadcastInDim S4096x1x20x64 ![0, 2, 3] bcast_S4096x20x64_S4096x1x20x64_0_2_3 : (⟨S4096x20x64, .f32⟩ : BufTy).Contents (Elt F) → (⟨S4096x1x20x64, .f32⟩ : BufTy).Contents (Elt F)),
    unary main_v4 main_v6 (broadcastInDim S4096x20x20x64 ![0, 1, 2, 3] bcast_S4096x20x1x64_S4096x20x20x64_0_1_2_3 : (⟨S4096x20x1x64, .f32⟩ : BufTy).Contents (Elt F) → (⟨S4096x20x20x64, .f32⟩ : BufTy).Contents (Elt F)),
    unary main_v5 main_v7 (broadcastInDim S4096x20x20x64 ![0, 1, 2, 3] bcast_S4096x1x20x64_S4096x20x20x64_0_1_2_3 : (⟨S4096x1x20x64, .f32⟩ : BufTy).Contents (Elt F) → (⟨S4096x20x20x64, .f32⟩ : BufTy).Contents (Elt F)),
    binary main_v6 main_v7 main_v8 (addf : (⟨S4096x20x20x64, .f32⟩ : BufTy).Contents (Elt F) → (⟨S4096x20x20x64, .f32⟩ : BufTy).Contents (Elt F) → (⟨S4096x20x20x64, .f32⟩ : BufTy).Contents (Elt F)),
    binary main_v8 main_arg1 main_v9 ((fun l r => Host.dotGeneral dot_S4096x20x20x64_S64x64_S4096x20x20x64_3_1_012_0_n_n none l r) : (⟨S4096x20x20x64, .f32⟩ : BufTy).Contents (Elt F) → (⟨S64x64, .f32⟩ : BufTy).Contents (Elt F) → (⟨S4096x20x20x64, .f32⟩ : BufTy).Contents (Elt F)),
    unary main_arg2 main_v10 (broadcastInDim S1x1x1x64 ![3] bcast_S64_S1x1x1x64_3 : (⟨S64, .f32⟩ : BufTy).Contents (Elt F) → (⟨S1x1x1x64, .f32⟩ : BufTy).Contents (Elt F)),
    unary main_v10 main_v11 (broadcastInDim S4096x20x20x64 ![0, 1, 2, 3] bcast_S1x1x1x64_S4096x20x20x64_0_1_2_3 : (⟨S1x1x1x64, .f32⟩ : BufTy).Contents (Elt F) → (⟨S4096x20x20x64, .f32⟩ : BufTy).Contents (Elt F)),
    binary main_v9 main_v11 main_v12 (addf : (⟨S4096x20x20x64, .f32⟩ : BufTy).Contents (Elt F) → (⟨S4096x20x20x64, .f32⟩ : BufTy).Contents (Elt F) → (⟨S4096x20x20x64, .f32⟩ : BufTy).Contents (Elt F)),
    TRef.nullary main_call0.cst (constant S_ .f32 0x00000000#32),
    TRef.unary main_call0.cst main_call0.v0 (broadcastInDim S4096x20x20x64 ![] bcast_S_S4096x20x20x64),
    TRef.binary (.of main_v12) main_call0.v0 main_call0.v1 (cmpf .oge),
    TRef.nullary main_call0.cst_0 (constant S_ .f32 0x3C23D70A#32),
    TRef.unary main_call0.cst_0 main_call0.v2 (broadcastInDim S4096x20x20x64 ![] bcast_S_S4096x20x20x64),
    TRef.binary main_call0.v2 (.of main_v12) main_call0.v3 mulf,
    TRef.ternary main_call0.v1 (.of main_v12) main_call0.v3 main_call0.call0.v0 select,
    binary main_v13 main_arg3 main_v14 ((fun l r => Host.dotGeneral dot_S4096x20x20x64_S1x64_S4096x20x20x1_3_1_012_0_n_n none l r) : (⟨S4096x20x20x64, .f32⟩ : BufTy).Contents (Elt F) → (⟨S1x64, .f32⟩ : BufTy).Contents (Elt F) → (⟨S4096x20x20x1, .f32⟩ : BufTy).Contents (Elt F)),
    unary main_arg4 main_v15 (broadcastInDim S1x1x1x1 ![3] bcast_S1_S1x1x1x1_3 : (⟨S1, .f32⟩ : BufTy).Contents (Elt F) → (⟨S1x1x1x1, .f32⟩ : BufTy).Contents (Elt F)),
    unary main_v15 main_v16 (broadcastInDim S4096x20x20x1 ![0, 1, 2, 3] bcast_S1x1x1x1_S4096x20x20x1_0_1_2_3 : (⟨S1x1x1x1, .f32⟩ : BufTy).Contents (Elt F) → (⟨S4096x20x20x1, .f32⟩ : BufTy).Contents (Elt F)),
    binary main_v14 main_v16 main_v17 (addf : (⟨S4096x20x20x1, .f32⟩ : BufTy).Contents (Elt F) → (⟨S4096x20x20x1, .f32⟩ : BufTy).Contents (Elt F) → (⟨S4096x20x20x1, .f32⟩ : BufTy).Contents (Elt F)),
    nullary main_cst (constant S_ .f32 0xFF800000#32),
    binary main_v17 main_cst main_v18 ((fun x v => Host.reduce FloatOps.maximumf x v reducesTo_S4096x20x20x1_S4096x20x1_d2 h_S_) : (⟨S4096x20x20x1, .f32⟩ : BufTy).Contents (Elt F) → (⟨S_, .f32⟩ : BufTy).Contents (Elt F) → (⟨S4096x20x1, .f32⟩ : BufTy).Contents (Elt F)),
    nullary main_cst_0 (constant S_ .f32 0xFF800000#32),
    unary main_cst_0 main_v19 (broadcastInDim S4096x20x1 ![] bcast_S_S4096x20x1 : (⟨S_, .f32⟩ : BufTy).Contents (Elt F) → (⟨S4096x20x1, .f32⟩ : BufTy).Contents (Elt F)),
    binary main_v19 main_v18 main_v20 (maximumf : (⟨S4096x20x1, .f32⟩ : BufTy).Contents (Elt F) → (⟨S4096x20x1, .f32⟩ : BufTy).Contents (Elt F) → (⟨S4096x20x1, .f32⟩ : BufTy).Contents (Elt F)),
    unary main_v20 main_v21 (broadcastInDim S4096x20x1x1 ![0, 1, 3] bcast_S4096x20x1_S4096x20x1x1_0_1_3 : (⟨S4096x20x1, .f32⟩ : BufTy).Contents (Elt F) → (⟨S4096x20x1x1, .f32⟩ : BufTy).Contents (Elt F)),
    unary main_v21 main_v22 (broadcastInDim S4096x20x20x1 ![0, 1, 2, 3] bcast_S4096x20x1x1_S4096x20x20x1_0_1_2_3 : (⟨S4096x20x1x1, .f32⟩ : BufTy).Contents (Elt F) → (⟨S4096x20x20x1, .f32⟩ : BufTy).Contents (Elt F)),
    binary main_v17 main_v22 main_v23 (subf : (⟨S4096x20x20x1, .f32⟩ : BufTy).Contents (Elt F) → (⟨S4096x20x20x1, .f32⟩ : BufTy).Contents (Elt F) → (⟨S4096x20x20x1, .f32⟩ : BufTy).Contents (Elt F)),
    unary main_v23 main_v24 (Host.exp : (⟨S4096x20x20x1, .f32⟩ : BufTy).Contents (Elt F) → (⟨S4096x20x20x1, .f32⟩ : BufTy).Contents (Elt F)),
    nullary main_cst_1 (constant S_ .f32 0x00000000#32),
    binary main_v24 main_cst_1 main_v25 ((fun x v => Host.reduceAdd x v reducesTo_S4096x20x20x1_S4096x20x1_d2 h_S_) : (⟨S4096x20x20x1, .f32⟩ : BufTy).Contents (Elt F) → (⟨S_, .f32⟩ : BufTy).Contents (Elt F) → (⟨S4096x20x1, .f32⟩ : BufTy).Contents (Elt F)),
    unary main_v25 main_v26 (broadcastInDim S4096x20x1x1 ![0, 1, 3] bcast_S4096x20x1_S4096x20x1x1_0_1_3 : (⟨S4096x20x1, .f32⟩ : BufTy).Contents (Elt F) → (⟨S4096x20x1x1, .f32⟩ : BufTy).Contents (Elt F)),
    unary main_v26 main_v27 (broadcastInDim S4096x20x20x1 ![0, 1, 2, 3] bcast_S4096x20x1x1_S4096x20x20x1_0_1_2_3 : (⟨S4096x20x1x1, .f32⟩ : BufTy).Contents (Elt F) → (⟨S4096x20x20x1, .f32⟩ : BufTy).Contents (Elt F)),
    binary main_v24 main_v27 main_v28 (Host.divf : (⟨S4096x20x20x1, .f32⟩ : BufTy).Contents (Elt F) → (⟨S4096x20x20x1, .f32⟩ : BufTy).Contents (Elt F) → (⟨S4096x20x20x1, .f32⟩ : BufTy).Contents (Elt F)),
    unary main_v1 main_v29 (broadcastInDim S4096x1x20x64 ![0, 2, 3] bcast_S4096x20x64_S4096x1x20x64_0_2_3 : (⟨S4096x20x64, .f32⟩ : BufTy).Contents (Elt F) → (⟨S4096x1x20x64, .f32⟩ : BufTy).Contents (Elt F)),
    unary main_v28 main_v30 (broadcastInDim S4096x20x20x64 ![0, 1, 2, 3] bcast_S4096x20x20x1_S4096x20x20x64_0_1_2_3 : (⟨S4096x20x20x1, .f32⟩ : BufTy).Contents (Elt F) → (⟨S4096x20x20x64, .f32⟩ : BufTy).Contents (Elt F)),
    unary main_v29 main_v31 (broadcastInDim S4096x20x20x64 ![0, 1, 2, 3] bcast_S4096x1x20x64_S4096x20x20x64_0_1_2_3 : (⟨S4096x1x20x64, .f32⟩ : BufTy).Contents (Elt F) → (⟨S4096x20x20x64, .f32⟩ : BufTy).Contents (Elt F)),
    binary main_v30 main_v31 main_v32 (mulf : (⟨S4096x20x20x64, .f32⟩ : BufTy).Contents (Elt F) → (⟨S4096x20x20x64, .f32⟩ : BufTy).Contents (Elt F) → (⟨S4096x20x20x64, .f32⟩ : BufTy).Contents (Elt F)),
    nullary main_cst_2 (constant S_ .f32 0x00000000#32),
    binary main_v32 main_cst_2 main_v33 ((fun x v => Host.reduceAdd x v reducesTo_S4096x20x20x64_S4096x20x64_d2 h_S_) : (⟨S4096x20x20x64, .f32⟩ : BufTy).Contents (Elt F) → (⟨S_, .f32⟩ : BufTy).Contents (Elt F) → (⟨S4096x20x64, .f32⟩ : BufTy).Contents (Elt F)),
    binary main_v33 main_arg5 main_v34 ((fun l r => Host.dotGeneral dot_S4096x20x64_S64x64_S4096x20x64_2_1_01_0_n_n none l r) : (⟨S4096x20x64, .f32⟩ : BufTy).Contents (Elt F) → (⟨S64x64, .f32⟩ : BufTy).Contents (Elt F) → (⟨S4096x20x64, .f32⟩ : BufTy).Contents (Elt F)),
    unary main_arg6 main_v35 (broadcastInDim S1x1x64 ![2] bcast_S64_S1x1x64_2 : (⟨S64, .f32⟩ : BufTy).Contents (Elt F) → (⟨S1x1x64, .f32⟩ : BufTy).Contents (Elt F)),
    unary main_v35 main_v36 (broadcastInDim S4096x20x64 ![0, 1, 2] bcast_S1x1x64_S4096x20x64_0_1_2 : (⟨S1x1x64, .f32⟩ : BufTy).Contents (Elt F) → (⟨S4096x20x64, .f32⟩ : BufTy).Contents (Elt F)),
    binary main_v34 main_v36 main_v37 (addf : (⟨S4096x20x64, .f32⟩ : BufTy).Contents (Elt F) → (⟨S4096x20x64, .f32⟩ : BufTy).Contents (Elt F) → (⟨S4096x20x64, .f32⟩ : BufTy).Contents (Elt F)),
    binary main_v37 main_v1 main_v38 (addf : (⟨S4096x20x64, .f32⟩ : BufTy).Contents (Elt F) → (⟨S4096x20x64, .f32⟩ : BufTy).Contents (Elt F) → (⟨S4096x20x64, .f32⟩ : BufTy).Contents (Elt F)),
    binary main_v38 main_arg7 main_v39 ((fun l r => Host.dotGeneral dot_S4096x20x64_S64x64_S4096x20x64_2_1_01_0_n_n none l r) : (⟨S4096x20x64, .f32⟩ : BufTy).Contents (Elt F) → (⟨S64x64, .f32⟩ : BufTy).Contents (Elt F) → (⟨S4096x20x64, .f32⟩ : BufTy).Contents (Elt F)),
    unary main_arg8 main_v40 (broadcastInDim S1x1x64 ![2] bcast_S64_S1x1x64_2 : (⟨S64, .f32⟩ : BufTy).Contents (Elt F) → (⟨S1x1x64, .f32⟩ : BufTy).Contents (Elt F)),
    unary main_v40 main_v41 (broadcastInDim S4096x20x64 ![0, 1, 2] bcast_S1x1x64_S4096x20x64_0_1_2 : (⟨S1x1x64, .f32⟩ : BufTy).Contents (Elt F) → (⟨S4096x20x64, .f32⟩ : BufTy).Contents (Elt F)),
    binary main_v39 main_v41 main_v42 (addf : (⟨S4096x20x64, .f32⟩ : BufTy).Contents (Elt F) → (⟨S4096x20x64, .f32⟩ : BufTy).Contents (Elt F) → (⟨S4096x20x64, .f32⟩ : BufTy).Contents (Elt F)),
    binary main_v3 main_v42 main_v43 (addf : (⟨S4096x20x64, .f32⟩ : BufTy).Contents (Elt F) → (⟨S4096x20x64, .f32⟩ : BufTy).Contents (Elt F) → (⟨S4096x20x64, .f32⟩ : BufTy).Contents (Elt F)),
    TRef.nullary main_call1.cst (constant S_ .f32 0x00000000#32),
    TRef.unary main_call1.cst main_call1.v0 (broadcastInDim S4096x20x64 ![] bcast_S_S4096x20x64),
    TRef.binary (.of main_v43) main_call1.v0 main_call1.v1 (cmpf .oge),
    TRef.nullary main_call1.cst_0 (constant S_ .f32 0x3C23D70A#32),
    TRef.unary main_call1.cst_0 main_call1.v2 (broadcastInDim S4096x20x64 ![] bcast_S_S4096x20x64),
    TRef.binary main_call1.v2 (.of main_v43) main_call1.v3 mulf,
    TRef.ternary main_call1.v1 (.of main_v43) main_call1.v3 main_call1.call0.v0 select ]

-- sixty-one binds re-associated: the rewrite under the chain recurses once per statement
set_option maxRecDepth 4096 in
/-- @main is that straight line: the functions' definitions unfolded at their calls and the records at their
    fields, both sides are one chain of steps once sequencing is reassociated. -/
theorem main_eq (c : Dev nD) : main (F := F) c = seq ops := by
  simp only [main, fn_leaky_relu.body, fn_where.body, fn_leaky_relu_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., unary_bufs_sub .., binary_bufs_sub .., nullary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's arithmetic as named stages: each the literal composition of the host operations that compute it,
  over variable operand arrays at the ideal values (a float an extended real), and their composition in the
  program's order.
-/
import proofs.«134249_j42984032698946_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The user's vector, repeated along the twenty items. -/
def refUser (a0 : FVec Ideal S4096x21x64 .f32) : FVec Ideal S4096x20x64 .f32 :=
  broadcastInDim S4096x20x64 ![0, 1, 2] bcast_S4096x1x64_S4096x20x64_0_1_2
    (extractStridedSlice S4096x1x64 ![0, 0, 0] a0 slices_S4096x21x64_S4096x1x64_0_0_0)

/-- The twenty item vectors: slots 1 to 20 of each row. -/
def refItems (a0 : FVec Ideal S4096x21x64 .f32) : FVec Ideal S4096x20x64 .f32 :=
  extractStridedSlice S4096x20x64 ![0, 1, 0] a0 slices_S4096x21x64_S4096x20x64_0_1_0

/-- The sum of item i and item j, for every pair. -/
def refPair (v1 : FVec Ideal S4096x20x64 .f32) : FVec Ideal S4096x20x20x64 .f32 :=
  addf
    (broadcastInDim S4096x20x20x64 ![0, 1, 2, 3] bcast_S4096x20x1x64_S4096x20x20x64_0_1_2_3
      (broadcastInDim S4096x20x1x64 ![0, 1, 3] bcast_S4096x20x64_S4096x20x1x64_0_1_3 v1))
    (broadcastInDim S4096x20x20x64 ![0, 1, 2, 3] bcast_S4096x1x20x64_S4096x20x20x64_0_1_2_3
      (broadcastInDim S4096x1x20x64 ![0, 2, 3] bcast_S4096x20x64_S4096x1x20x64_0_2_3 v1))

/-- An affine map along the last axis of a rank-4 array. -/
def refLin4 (x : FVec Ideal S4096x20x20x64 .f32) (w : FVec Ideal S64x64 .f32) (bb : FVec Ideal S64 .f32) :
    FVec Ideal S4096x20x20x64 .f32 :=
  addf (Host.dotGeneral (F := Ideal) dot_S4096x20x20x64_S64x64_S4096x20x20x64_3_1_012_0_n_n none x w)
    (broadcastInDim S4096x20x20x64 ![0, 1, 2, 3] bcast_S1x1x1x64_S4096x20x20x64_0_1_2_3
      (broadcastInDim S1x1x1x64 ![3] bcast_S64_S1x1x1x64_3 bb))

/-- The leaky rectifier on a rank-4 array. -/
def refLrelu4 (x : FVec Ideal S4096x20x20x64 .f32) : FVec Ideal S4096x20x20x64 .f32 :=
  select
    (cmpf (F := Ideal) .oge x
      (broadcastInDim S4096x20x20x64 ![] bcast_S_S4096x20x20x64 (constant (F := Ideal) S_ .f32 0x00000000#32)))
    x
    (mulf (F := Ideal)
      (broadcastInDim S4096x20x20x64 ![] bcast_S_S4096x20x20x64 (constant (F := Ideal) S_ .f32 0x3C23D70A#32)) x)

/-- The score of every pair: an affine functional of its hidden vector. -/
def refScore (hd : FVec Ideal S4096x20x20x64 .f32) (a3 : FVec Ideal S1x64 .f32) (a4 : FVec Ideal S1 .f32) :
    FVec Ideal S4096x20x20x1 .f32 :=
  addf (Host.dotGeneral (F := Ideal) dot_S4096x20x20x64_S1x64_S4096x20x20x1_3_1_012_0_n_n none hd a3)
    (broadcastInDim S4096x20x20x1 ![0, 1, 2, 3] bcast_S1x1x1x1_S4096x20x20x1_0_1_2_3
      (broadcastInDim S1x1x1x1 ![3] bcast_S1_S1x1x1x1_3 a4))

/-- The largest score of each item's row of twenty, from −∞. -/
def refTop (s : FVec Ideal S4096x20x20x1 .f32) : FVec Ideal S4096x20x1 .f32 :=
  maximumf (F := Ideal)
    (broadcastInDim S4096x20x1 ![] bcast_S_S4096x20x1 (constant (F := Ideal) S_ .f32 0xFF800000#32))
    (Host.reduce (FloatOps.maximumf (F := Ideal) (φ := .f32)) s (constant (F := Ideal) S_ .f32 0xFF800000#32)
      reducesTo_S4096x20x20x1_S4096x20x1_d2 h_S_)

/-- The exponential of each score's distance below its row's largest. -/
def refExp (s : FVec Ideal S4096x20x20x1 .f32) (t : FVec Ideal S4096x20x1 .f32) : FVec Ideal S4096x20x20x1 .f32 :=
  Host.exp (F := Ideal)
    (subf (F := Ideal) s
      (broadcastInDim S4096x20x20x1 ![0, 1, 2, 3] bcast_S4096x20x1x1_S4096x20x20x1_0_1_2_3
        (broadcastInDim S4096x20x1x1 ![0, 1, 3] bcast_S4096x20x1_S4096x20x1x1_0_1_3 t)))

/-- Each exponential divided by its row's sum. -/
def refWeight (e : FVec Ideal S4096x20x20x1 .f32) : FVec Ideal S4096x20x20x1 .f32 :=
  Host.divf (F := Ideal) e
    (broadcastInDim S4096x20x20x1 ![0, 1, 2, 3] bcast_S4096x20x1x1_S4096x20x20x1_0_1_2_3
      (broadcastInDim S4096x20x1x1 ![0, 1, 3] bcast_S4096x20x1_S4096x20x1x1_0_1_3
        (Host.reduceAdd (F := Ideal) e (constant (F := Ideal) S_ .f32 0x00000000#32)
          reducesTo_S4096x20x20x1_S4096x20x1_d2 h_S_)))

/-- The items mixed with each row's weights. -/
def refMix (w : FVec Ideal S4096x20x20x1 .f32) (v1 : FVec Ideal S4096x20x64 .f32) : FVec Ideal S4096x20x64 .f32 :=
  Host.reduceAdd (F := Ideal)
    (mulf (F := Ideal)
      (broadcastInDim S4096x20x20x64 ![0, 1, 2, 3] bcast_S4096x20x20x1_S4096x20x20x64_0_1_2_3 w)
      (broadcastInDim S4096x20x20x64 ![0, 1, 2, 3] bcast_S4096x1x20x64_S4096x20x20x64_0_1_2_3
        (broadcastInDim S4096x1x20x64 ![0, 2, 3] bcast_S4096x20x64_S4096x1x20x64_0_2_3 v1)))
    (constant (F := Ideal) S_ .f32 0x00000000#32) reducesTo_S4096x20x20x64_S4096x20x64_d2 h_S_

/-- An affine map along the last axis of a rank-3 array. -/
def refLin3 (x : FVec Ideal S4096x20x64 .f32) (w : FVec Ideal S64x64 .f32) (bb : FVec Ideal S64 .f32) :
    FVec Ideal S4096x20x64 .f32 :=
  addf (Host.dotGeneral (F := Ideal) dot_S4096x20x64_S64x64_S4096x20x64_2_1_01_0_n_n none x w)
    (broadcastInDim S4096x20x64 ![0, 1, 2] bcast_S1x1x64_S4096x20x64_0_1_2
      (broadcastInDim S1x1x64 ![2] bcast_S64_S1x1x64_2 bb))

/-- The leaky rectifier on a rank-3 array. -/
def refLrelu3 (x : FVec Ideal S4096x20x64 .f32) : FVec Ideal S4096x20x64 .f32 :=
  select
    (cmpf (F := Ideal) .oge x
      (broadcastInDim S4096x20x64 ![] bcast_S_S4096x20x64 (constant (F := Ideal) S_ .f32 0x00000000#32)))
    x
    (mulf (F := Ideal)
      (broadcastInDim S4096x20x64 ![] bcast_S_S4096x20x64 (constant (F := Ideal) S_ .f32 0x3C23D70A#32)) x)

/-- The scores of every pair, from the embeddings and the first five weights. -/
def refScores (a0 : FVec Ideal S4096x21x64 .f32) (a1 : FVec Ideal S64x64 .f32) (a2 : FVec Ideal S64 .f32)
    (a3 : FVec Ideal S1x64 .f32) (a4 : FVec Ideal S1 .f32) : FVec Ideal S4096x20x20x1 .f32 :=
  refScore (refLrelu4 (refLin4 (refPair (refItems a0)) a1 a2)) a3 a4

/-- The softmax weights of every pair. -/
def refWeights (s : FVec Ideal S4096x20x20x1 .f32) : FVec Ideal S4096x20x20x1 .f32 :=
  refWeight (refExp s (refTop s))

/-- The whole reference: the stages composed in the program's order. -/
def refOut (a0 : FVec Ideal S4096x21x64 .f32) (a1 : FVec Ideal S64x64 .f32) (a2 : FVec Ideal S64 .f32)
    (a3 : FVec Ideal S1x64 .f32) (a4 : FVec Ideal S1 .f32) (a5 : FVec Ideal S64x64 .f32) (a6 : FVec Ideal S64 .f32)
    (a7 : FVec Ideal S64x64 .f32) (a8 : FVec Ideal S64 .f32) : FVec Ideal S4096x20x64 .f32 :=
  refLrelu3
    (addf (F := Ideal) (mulf (F := Ideal) (refUser a0) (refItems a0))
      (refLin3
        (addf (F := Ideal) (refLin3 (refMix (refWeights (refScores a0 a1 a2 a3 a4)) (refItems a0)) a5 a6) (refItems a0))
        a7 a8))

end Cert.ReferenceIdeal.RefValue

end
-- ==== Proof.RefTerm.lean ====
/-
  The fold of the reference's sixty-one operations read at the result buffer is the composition of the named stages
  applied to the argument buffers' contents; at each argument buffer it is what was there.
-/
import proofs.«134249_j42984032698946_2_alg».proof.Proof.RefRun
import proofs.«134249_j42984032698946_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduce Host.reduceAdd in
set_option maxRecDepth 16384 in
set_option maxHeartbeats 1600000 in
/-- The result buffer after the line: every operation's result rewritten at its own buffer, the calls' typed
    references the identity at these literal buffers. -/
theorem result_eq (V : Valuation τ sig (Elt Ideal)) :
    after (ops (F := Ideal)) V (main_v44 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

theorem arg6_eq (V : Valuation τ sig (Elt Ideal)) :
    after (ops (F := Ideal)) V (main_arg6 : DevRef τ sig) = V (main_arg6 : DevRef τ sig) := by
  after_results_simp

theorem arg7_eq (V : Valuation τ sig (Elt Ideal)) :
    after (ops (F := Ideal)) V (main_arg7 : DevRef τ sig) = V (main_arg7 : DevRef τ sig) := by
  after_results_simp

theorem arg8_eq (V : Valuation τ sig (Elt Ideal)) :
    after (ops (F := Ideal)) V (main_arg8 : DevRef τ sig) = V (main_arg8 : DevRef τ sig) := by
  after_results_simp

end Cert.ReferenceIdeal.RefValue

end
-- ==== Proof.RefIdxA.lean ====
/-
  The reference's re-indexing and elementwise stages read at one index: the item slice, the user's broadcast, the
  pairwise sum, the two leaky rectifiers, the exponential of the distance below the row maximum.
-/
import proofs.«134249_j42984032698946_2_alg».proof.Proof.RefStages
import proofs.«134249_j42984032698946_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-- Item i of row b is slot i + 1 of the row. -/
theorem refItems_apply (a0 : FVec Ideal S4096x21x64 .f32) (b : Fin 4096) (i : Fin 20) (d : Fin 64) :
    refItems a0 (ix3 b i d) = a0 (ix3 b (⟨i.val + 1, by omega⟩ : Fin 21) d) := by
  unfold refItems
  refine extractStridedSlice_apply _ a0 _ (ix3 b i d) (ix3 b (⟨i.val + 1, by omega⟩ : Fin 21) d) fun a => ?_
  match a with
  | ⟨0, _⟩ => show b.val = 0 + b.val; omega
  | ⟨1, _⟩ => show i.val + 1 = 1 + i.val; omega
  | ⟨2, _⟩ => show d.val = 0 + d.val; omega

/-- The user's vector is slot 0 of the row, whatever the item. -/
theorem refUser_apply (a0 : FVec Ideal S4096x21x64 .f32) (b : Fin 4096) (i : Fin 20) (d : Fin 64) :
    refUser a0 (ix3 b i d) = a0 (ix3 b (0 : Fin 21) d) := by
  unfold refUser
  refine (broadcastInDim_apply _ _ _ (ix3 b i d) (ix3 b (0 : Fin 1) d) fun a => ?_).trans ?_
  · match a with
    | ⟨0, _⟩ => rfl
    | ⟨1, _⟩ => rfl
    | ⟨2, _⟩ => rfl
  · refine extractStridedSlice_apply _ a0 _ (ix3 b (0 : Fin 1) d) (ix3 b (0 : Fin 21) d) fun a => ?_
    match a with
    | ⟨0, _⟩ => show b.val = 0 + b.val; omega
    | ⟨1, _⟩ => rfl
    | ⟨2, _⟩ => show d.val = 0 + d.val; omega

/-- The pairwise sum at (b, i, j, d) is item i plus item j at d. -/
theorem refPair_apply (v1 : FVec Ideal S4096x20x64 .f32) (b : Fin 4096) (i j : Fin 20) (d : Fin 64) :
    refPair v1 (ix4 b i j d) = v1 (ix3 b i d) + v1 (ix3 b j d) := by
  unfold refPair
  rw [addf_apply]
  congr 1
  · refine (broadcastInDim_apply _ _ _ (ix4 b i j d) (ix4 b i (0 : Fin 1) d) fun a => ?_).trans ?_
    · match a with
      | ⟨0, _⟩ => rfl
      | ⟨1, _⟩ => rfl
      | ⟨2, _⟩ => rfl
      | ⟨3, _⟩ => rfl
    · refine broadcastInDim_apply _ _ v1 (ix4 b i (0 : Fin 1) d) (ix3 b i d) fun a => ?_
      match a with
      | ⟨0, _⟩ => rfl
      | ⟨1, _⟩ => rfl
      | ⟨2, _⟩ => rfl
  · refine (broadcastInDim_apply _ _ _ (ix4 b i j d) (ix4 b (0 : Fin 1) j d) fun a => ?_).trans ?_
    · match a with
      | ⟨0, _⟩ => rfl
      | ⟨1, _⟩ => rfl
      | ⟨2, _⟩ => rfl
      | ⟨3, _⟩ => rfl
    · refine broadcastInDim_apply _ _ v1 (ix4 b (0 : Fin 1) j d) (ix3 b j d) fun a => ?_
      match a with
      | ⟨0, _⟩ => rfl
      | ⟨1, _⟩ => rfl
      | ⟨2, _⟩ => rfl

/-- The rank-4 leaky rectifier at any index is the scalar one. -/
theorem refLrelu4_apply (x : FVec Ideal S4096x20x20x64 .f32) (q : S4096x20x20x64.Idx) :
    refLrelu4 x q = Cert.AttRow.lrelu (x q) := rfl

/-- The rank-3 leaky rectifier at any index is the scalar one. -/
theorem refLrelu3_apply (x : FVec Ideal S4096x20x64 .f32) (q : S4096x20x64.Idx) :
    refLrelu3 x q = Cert.AttRow.lrelu (x q) := rfl

/-- The exponential stage at (b, i, j): the exponential of the score minus the row's top. -/
theorem refExp_apply (s : FVec Ideal S4096x20x20x1 .f32) (t : FVec Ideal S4096x20x1 .f32) (b : Fin 4096) (i j : Fin 20) :
    refExp s t (ix4 b i j (0 : Fin 1)) = Ideal.exp (s (ix4 b i j (0 : Fin 1)) - t (ix3 b i (0 : Fin 1))) := by
  unfold refExp
  show Ideal.exp (s (ix4 b i j (0 : Fin 1)) - _) = _
  congr 2
  refine (broadcastInDim_apply _ _ _ (ix4 b i j (0 : Fin 1)) (ix4 b i (0 : Fin 1) (0 : Fin 1)) fun a => ?_).trans ?_
  · match a with
    | ⟨0, _⟩ => rfl
    | ⟨1, _⟩ => rfl
    | ⟨2, _⟩ => rfl
    | ⟨3, _⟩ => rfl
  · refine broadcastInDim_apply _ _ t (ix4 b i (0 : Fin 1) (0 : Fin 1)) (ix3 b i (0 : Fin 1)) fun a => ?_
    match a with
    | ⟨0, _⟩ => rfl
    | ⟨1, _⟩ => rfl
    | ⟨2, _⟩ => rfl

end Cert.ReferenceIdeal.RefValue

end
-- ==== Proof.RefIdxB.lean ====
/-
  The reference's three contractions read at one index: each is the sum over the contracted coordinate of the products of
  the operands' entries, plus the bias at the output coordinate.
-/
import proofs.«134249_j42984032698946_2_alg».proof.Proof.RefStages
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The pair array against a 64 × 64 matrix, contracting the last axis of each. -/
abbrev D4 : DotDims S4096x20x20x64 S64x64 S4096x20x20x64 := dot_S4096x20x20x64_S64x64_S4096x20x20x64_3_1_012_0_n_n
/-- The hidden array against the 1 × 64 score functional. -/
abbrev D1 : DotDims S4096x20x20x64 S1x64 S4096x20x20x1 := dot_S4096x20x20x64_S1x64_S4096x20x20x1_3_1_012_0_n_n
/-- A rank-3 array against a 64 × 64 matrix. -/
abbrev D3 : DotDims S4096x20x64 S64x64 S4096x20x64 := dot_S4096x20x64_S64x64_S4096x20x64_2_1_01_0_n_n

theorem D4_lhs (b : Fin 4096) (i j : Fin 20) (o d : Fin 64) :
    D4.lhsIdx (ix4 b i j o) ((contrEquiv1 D4 64 rfl rfl).symm d) = ix4 b i j d := by
  funext a; apply Fin.ext
  match a with
  | ⟨0, _⟩ => rfl
  | ⟨1, _⟩ => rfl
  | ⟨2, _⟩ => rfl
  | ⟨3, _⟩ => exact (D4.lhsIdx_val_of_single (cl := (3 : Fin 4)) rfl _ _).trans (contrEquiv1_symm_val D4 64 rfl rfl d)

theorem D4_rhs (b : Fin 4096) (i j : Fin 20) (o d : Fin 64) :
    D4.rhsIdx (ix4 b i j o) ((contrEquiv1 D4 64 rfl rfl).symm d) = ix2 o d := by
  funext a; apply Fin.ext
  match a with
  | ⟨0, _⟩ => rfl
  | ⟨1, _⟩ => exact (D4.rhsIdx_val_of_single (cr := (1 : Fin 2)) rfl _ _).trans (contrEquiv1_symm_val D4 64 rfl rfl d)

theorem D1_lhs (b : Fin 4096) (i j : Fin 20) (o : Fin 64) :
    D1.lhsIdx (ix4 b i j (0 : Fin 1)) ((contrEquiv1 D1 64 rfl rfl).symm o) = ix4 b i j o := by
  funext a; apply Fin.ext
  match a with
  | ⟨0, _⟩ => rfl
  | ⟨1, _⟩ => rfl
  | ⟨2, _⟩ => rfl
  | ⟨3, _⟩ => exact (D1.lhsIdx_val_of_single (cl := (3 : Fin 4)) rfl _ _).trans (contrEquiv1_symm_val D1 64 rfl rfl o)

theorem D1_rhs (b : Fin 4096) (i j : Fin 20) (o : Fin 64) :
    D1.rhsIdx (ix4 b i j (0 : Fin 1)) ((contrEquiv1 D1 64 rfl rfl).symm o) = ix2 (0 : Fin 1) o := by
  funext a; apply Fin.ext
  match a with
  | ⟨0, _⟩ => rfl
  | ⟨1, _⟩ => exact (D1.rhsIdx_val_of_single (cr := (1 : Fin 2)) rfl _ _).trans (contrEquiv1_symm_val D1 64 rfl rfl o)

theorem D3_lhs (b : Fin 4096) (i : Fin 20) (o d : Fin 64) :
    D3.lhsIdx (ix3 b i o) ((contrEquiv1 D3 64 rfl rfl).symm d) = ix3 b i d := by
  funext a; apply Fin.ext
  match a with
  | ⟨0, _⟩ => rfl
  | ⟨1, _⟩ => rfl
  | ⟨2, _⟩ => exact (D3.lhsIdx_val_of_single (cl := (2 : Fin 3)) rfl _ _).trans (contrEquiv1_symm_val D3 64 rfl rfl d)

theorem D3_rhs (b : Fin 4096) (i : Fin 20) (o d : Fin 64) :
    D3.rhsIdx (ix3 b i o) ((contrEquiv1 D3 64 rfl rfl).symm d) = ix2 o d := by
  funext a; apply Fin.ext
  match a with
  | ⟨0, _⟩ => rfl
  | ⟨1, _⟩ => exact (D3.rhsIdx_val_of_single (cr := (1 : Fin 2)) rfl _ _).trans (contrEquiv1_symm_val D3 64 rfl rfl d)

/-- The rank-4 affine map at (b, i, j, o): the sum over d of x[b, i, j, d] · w[o, d], plus the bias at o. -/
theorem refLin4_apply (x : FVec Ideal S4096x20x20x64 .f32) (w : FVec Ideal S64x64 .f32) (bb : FVec Ideal S64 .f32)
    (b : Fin 4096) (i j : Fin 20) (o : Fin 64) :
    refLin4 x w bb (ix4 b i j o) = (∑ d : Fin 64, x (ix4 b i j d) * w (ix2 o d)) + bb (ix1 o) := by
  unfold refLin4
  rw [addf_apply]
  congr 1
  · refine (Ideal.dotGeneral_apply D4 none .single x w (ix4 b i j o)).trans ?_
    refine (Equiv.sum_comp (contrEquiv1 D4 64 rfl rfl).symm _).symm.trans ?_
    exact Finset.sum_congr rfl fun d _ =>
      congrArg₂ (fun p q : EReal => p * q) (congrArg x (D4_lhs b i j o d)) (congrArg w (D4_rhs b i j o d))
  · refine (broadcastInDim_apply _ _ _ (ix4 b i j o) (ix4 (0 : Fin 1) (0 : Fin 1) (0 : Fin 1) o) fun a => ?_).trans ?_
    · match a with
      | ⟨0, _⟩ => rfl
      | ⟨1, _⟩ => rfl
      | ⟨2, _⟩ => rfl
      | ⟨3, _⟩ => rfl
    · refine broadcastInDim_apply _ _ bb (ix4 (0 : Fin 1) (0 : Fin 1) (0 : Fin 1) o) (ix1 o) fun a => ?_
      match a with
      | ⟨0, _⟩ => rfl

/-- The score at (b, i, j): the sum over o of hd[b, i, j, o] · a3[0, o], plus the one bias. -/
theorem refScore_apply (hd : FVec Ideal S4096x20x20x64 .f32) (a3 : FVec Ideal S1x64 .f32) (a4 : FVec Ideal S1 .f32)
    (b : Fin 4096) (i j : Fin 20) :
    refScore hd a3 a4 (ix4 b i j (0 : Fin 1))
      = (∑ o : Fin 64, hd (ix4 b i j o) * a3 (ix2 (0 : Fin 1) o)) + a4 (ix1 (0 : Fin 1)) := by
  unfold refScore
  rw [addf_apply]
  congr 1
  · refine (Ideal.dotGeneral_apply D1 none .single hd a3 (ix4 b i j (0 : Fin 1))).trans ?_
    refine (Equiv.sum_comp (contrEquiv1 D1 64 rfl rfl).symm _).symm.trans ?_
    exact Finset.sum_congr rfl fun o _ =>
      congrArg₂ (fun p q : EReal => p * q) (congrArg hd (D1_lhs b i j o)) (congrArg a3 (D1_rhs b i j o))
  · refine (broadcastInDim_apply _ _ _ (ix4 b i j (0 : Fin 1)) (ix4 (0 : Fin 1) (0 : Fin 1) (0 : Fin 1) (0 : Fin 1)) fun a => ?_).trans ?_
    · match a with
      | ⟨0, _⟩ => rfl
      | ⟨1, _⟩ => rfl
      | ⟨2, _⟩ => rfl
      | ⟨3, _⟩ => rfl
    · refine broadcastInDim_apply _ _ a4 (ix4 (0 : Fin 1) (0 : Fin 1) (0 : Fin 1) (0 : Fin 1)) (ix1 (0 : Fin 1)) fun a => ?_
      match a with
      | ⟨0, _⟩ => rfl

/-- The rank-3 affine map at (b, i, o): the sum over d of x[b, i, d] · w[o, d], plus the bias at o. -/
theorem refLin3_apply (x : FVec Ideal S4096x20x64 .f32) (w : FVec Ideal S64x64 .f32) (bb : FVec Ideal S64 .f32)
    (b : Fin 4096) (i : Fin 20) (o : Fin 64) :
    refLin3 x w bb (ix3 b i o) = (∑ d : Fin 64, x (ix3 b i d) * w (ix2 o d)) + bb (ix1 o) := by
  unfold refLin3
  rw [addf_apply]
  congr 1
  · refine (Ideal.dotGeneral_apply D3 none .single x w (ix3 b i o)).trans ?_
    refine (Equiv.sum_comp (contrEquiv1 D3 64 rfl rfl).symm _).symm.trans ?_
    exact Finset.sum_congr rfl fun d _ =>
      congrArg₂ (fun p q : EReal => p * q) (congrArg x (D3_lhs b i o d)) (congrArg w (D3_rhs b i o d))
  · refine (broadcastInDim_apply _ _ _ (ix3 b i o) (ix3 (0 : Fin 1) (0 : Fin 1) o) fun a => ?_).trans ?_
    · match a with
      | ⟨0, _⟩ => rfl
      | ⟨1, _⟩ => rfl
      | ⟨2, _⟩ => rfl
    · refine broadcastInDim_apply _ _ bb (ix3 (0 : Fin 1) (0 : Fin 1) o) (ix1 o) fun a => ?_
      match a with
      | ⟨0, _⟩ => rfl

end Cert.ReferenceIdeal.RefValue

end
-- ==== Proof.RefIdxC.lean ====
/-
  The reference's three reductions over the second item axis read at one index: the row maximum as a fold from −∞, the
  two row sums (from zero) as sums over the twenty coordinates.
-/
import proofs.«134249_j42984032698946_2_alg».proof.Proof.RefStages
import proofs.«134249_j42984032698946_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx

/-- Dropping the second item axis of the score array. -/
theorem red1 : S4096x20x20x1.Reduces [2] S4096x20x1 := by decide
/-- Dropping the second item axis of the weighted item array. -/
theorem red64 : S4096x20x20x64.Reduces [2] S4096x20x64 := by decide

/-- The reduced index (b, i, 0) with coordinate k put back on the dropped axis is (b, i, k, 0). -/
theorem lift1 (b : Fin 4096) (i k : Fin 20) :
    red1.lift (ix3 b i (0 : Fin 1)) k = ix4 b i k (0 : Fin 1) := by
  funext c; apply Fin.ext
  match c with
  | ⟨0, _⟩ => rfl
  | ⟨1, _⟩ => rfl
  | ⟨2, _⟩ => rfl
  | ⟨3, _⟩ => rfl

/-- The reduced index (b, i, d) with coordinate k put back on the dropped axis is (b, i, k, d). -/
theorem lift64 (b : Fin 4096) (i k : Fin 20) (d : Fin 64) :
    red64.lift (ix3 b i d) k = ix4 b i k d := by
  funext c; apply Fin.ext
  match c with
  | ⟨0, _⟩ => rfl
  | ⟨1, _⟩ => rfl
  | ⟨2, _⟩ => rfl
  | ⟨3, _⟩ => rfl

/-- A host sum over one axis from the zero word is the sum over that axis's coordinates. -/
theorem hostSum_apply {s t : Shape} {a : Fin s.rank} (h' : s.ReducesTo [a] t) (h : s.Reduces [a] t)
    (x : FVec Ideal s .f32) (hu : 0 < S_.numel) (q : t.Idx) :
    Host.reduceAdd (F := Ideal) x (constant (F := Ideal) S_ .f32 0x00000000#32) h' hu q
      = ∑ k : Fin (s.size a), x (h.lift q k) := by
  unfold Host.reduceAdd
  refine (Ideal.hostReduceAdd_single h' h x _ q).trans ?_
  show Ideal.ofBits .f32 0x00000000#32 + _ = _
  rw [Ideal.ofBits_zero_f32, zero_add]

/-- The row maximum at (b, i): the largest of −∞ and the fold of the maximum from −∞ over the row's twenty scores. -/
theorem refTop_apply (s : FVec Ideal S4096x20x20x1 .f32) (b : Fin 4096) (i : Fin 20) :
    refTop s (ix3 b i (0 : Fin 1)) = Cert.AttRow.top (fun j : Fin 20 => s (ix4 b i j (0 : Fin 1))) := by
  unfold refTop Cert.AttRow.top
  rw [maximumf_apply]
  refine congrArg (max (Ideal.ofBits .f32 0xFF800000#32)) ?_
  refine (Host.reduce_eq_fold_single (FloatOps.maximumf (F := Ideal) (φ := .f32)) s _
    reducesTo_S4096x20x20x1_S4096x20x1_d2 red1 h_S_ (ix3 b i (0 : Fin 1))).trans ?_
  have hf : (s ∘ red1.lift (ix3 b i (0 : Fin 1))) = fun j : Fin 20 => s (ix4 b i j (0 : Fin 1)) :=
    funext fun k => congrArg s (lift1 b i k)
  exact congrArg (fun f => Finset.fold max (Ideal.ofBits .f32 0xFF800000#32) f (Finset.univ : Finset (Fin 20))) hf

/-- The softmax division at (b, i, j): the entry over the sum of its row's twenty. -/
theorem refWeight_apply (e : FVec Ideal S4096x20x20x1 .f32) (b : Fin 4096) (i j : Fin 20) :
    refWeight e (ix4 b i j (0 : Fin 1))
      = Ideal.div (e (ix4 b i j (0 : Fin 1))) (∑ k : Fin 20, e (ix4 b i k (0 : Fin 1))) := by
  unfold refWeight
  show Ideal.div (e (ix4 b i j (0 : Fin 1))) _ = _
  refine congrArg (Ideal.div (e (ix4 b i j (0 : Fin 1)))) ?_
  refine (broadcastInDim_apply _ _ _ (ix4 b i j (0 : Fin 1)) (ix4 b i (0 : Fin 1) (0 : Fin 1)) fun a => ?_).trans ?_
  · match a with
    | ⟨0, _⟩ => rfl
    | ⟨1, _⟩ => rfl
    | ⟨2, _⟩ => rfl
    | ⟨3, _⟩ => rfl
  refine (broadcastInDim_apply _ _ _ (ix4 b i (0 : Fin 1) (0 : Fin 1)) (ix3 b i (0 : Fin 1)) fun a => ?_).trans ?_
  · match a with
    | ⟨0, _⟩ => rfl
    | ⟨1, _⟩ => rfl
    | ⟨2, _⟩ => rfl
  refine (hostSum_apply reducesTo_S4096x20x20x1_S4096x20x1_d2 red1 e h_S_ (ix3 b i (0 : Fin 1))).trans ?_
  exact Finset.sum_congr rfl fun k _ => congrArg e (lift1 b i k)

/-- The mixture at (b, i, d): the sum over j of the weight of (i, j) times item j at d. -/
theorem refMix_apply (w : FVec Ideal S4096x20x20x1 .f32) (v1 : FVec Ideal S4096x20x64 .f32)
    (b : Fin 4096) (i : Fin 20) (d : Fin 64) :
    refMix w v1 (ix3 b i d) = ∑ j : Fin 20, w (ix4 b i j (0 : Fin 1)) * v1 (ix3 b j d) := by
  unfold refMix
  refine (hostSum_apply reducesTo_S4096x20x20x64_S4096x20x64_d2 red64 _ h_S_ (ix3 b i d)).trans ?_
  refine Finset.sum_congr rfl fun k _ => ?_
  rw [lift64 b i k d, mulf_apply]
  congr 1
  · refine broadcastInDim_apply _ _ w (ix4 b i k d) (ix4 b i k (0 : Fin 1)) fun a => ?_
    match a with
    | ⟨0, _⟩ => rfl
    | ⟨1, _⟩ => rfl
    | ⟨2, _⟩ => rfl
    | ⟨3, _⟩ => rfl
  · refine (broadcastInDim_apply _ _ _ (ix4 b i k d) (ix4 b (0 : Fin 1) k d) fun a => ?_).trans ?_
    · match a with
      | ⟨0, _⟩ => rfl
      | ⟨1, _⟩ => rfl
      | ⟨2, _⟩ => rfl
      | ⟨3, _⟩ => rfl
    · refine broadcastInDim_apply _ _ v1 (ix4 b (0 : Fin 1) k d) (ix3 b k d) fun a => ?_
      match a with
      | ⟨0, _⟩ => rfl
      | ⟨1, _⟩ => rfl
      | ⟨2, _⟩ => rfl

end Cert.ReferenceIdeal.RefValue

end
-- ==== Proof.RefRow.lean ====
/-
  The reference read row by row: at batch row b every stage, read at an index, is the row function's stage of that
  row of the embeddings and of the weights read through their coordinates; hence the reference's result array is the
  row function applied to every row.
-/
import proofs.«134249_j42984032698946_2_alg».proof.Proof.RefIdxA
import proofs.«134249_j42984032698946_2_alg».proof.Proof.RefIdxB
import proofs.«134249_j42984032698946_2_alg».proof.Proof.RefIdxC

noncomputable section

open scoped BigOperators

namespace Cert.ReferenceIdeal.RefValue

open Cert.ReferenceIdeal Cert.ReferenceIdeal.Gen Idealize.ShloMosaic Idealize.ShloMosaic.ValueIdx

variable (a0 : FVec Ideal S4096x21x64 .f32) (a1 : FVec Ideal S64x64 .f32) (a2 : FVec Ideal S64 .f32)
  (a3 : FVec Ideal S1x64 .f32) (a4 : FVec Ideal S1 .f32) (a5 : FVec Ideal S64x64 .f32) (a6 : FVec Ideal S64 .f32)
  (a7 : FVec Ideal S64x64 .f32) (a8 : FVec Ideal S64 .f32) (b : Fin 4096)

/-- The item slice at row b is the row's item. -/
theorem items_row (i : Fin 20) (d : Fin 64) :
    refItems a0 (ix3 b i d) = Cert.AttRow.item (fun n d => a0 (ix3 b n d)) i d :=
  refItems_apply a0 b i d

/-- The hidden array at (b, i, j, o) is the row's hidden vector of the pair (i, j) at o. -/
theorem hid_row (i j : Fin 20) (o : Fin 64) :
    refLrelu4 (refLin4 (refPair (refItems a0)) a1 a2) (ix4 b i j o)
      = Cert.AttRow.hid (fun n d => a0 (ix3 b n d)) (fun o d => a1 (ix2 o d)) (fun o => a2 (ix1 o)) i j o := by
  rw [refLrelu4_apply, refLin4_apply]
  unfold Cert.AttRow.hid
  refine congrArg Cert.AttRow.lrelu ?_
  congr 1
  refine Finset.sum_congr rfl fun d _ => ?_
  rw [refPair_apply, items_row, items_row]

/-- The score array at (b, i, j) is the row's score of the pair. -/
theorem score_row (i j : Fin 20) :
    refScores a0 a1 a2 a3 a4 (ix4 b i j (0 : Fin 1)) = Cert.AttRow.score (fun n d => a0 (ix3 b n d)) (fun o d => a1 (ix2 o d)) (fun o => a2 (ix1 o)) (fun o => a3 (ix2 (0 : Fin 1) o)) (a4 (ix1 (0 : Fin 1))) i j := by
  unfold refScores
  rw [refScore_apply]
  unfold Cert.AttRow.score
  congr 1
  refine Finset.sum_congr rfl fun o _ => ?_
  rw [hid_row]

/-- Item i's twenty scores, as a function of j, are the row's. -/
theorem score_fun (i : Fin 20) :
    (fun k : Fin 20 => refScores a0 a1 a2 a3 a4 (ix4 b i k (0 : Fin 1))) = Cert.AttRow.score (fun n d => a0 (ix3 b n d)) (fun o d => a1 (ix2 o d)) (fun o => a2 (ix1 o)) (fun o => a3 (ix2 (0 : Fin 1) o)) (a4 (ix1 (0 : Fin 1))) i :=
  funext fun k => score_row a0 a1 a2 a3 a4 b i k

/-- The softmax of any score array at (b, i, j) is the softmax weight of j among item i's twenty scores. -/
theorem weight_row (s : FVec Ideal S4096x20x20x1 .f32) (i j : Fin 20) :
    refWeights s (ix4 b i j (0 : Fin 1)) = Cert.AttRow.weight (fun k : Fin 20 => s (ix4 b i k (0 : Fin 1))) j := by
  unfold refWeights
  rw [refWeight_apply]
  simp only [refExp_apply, refTop_apply]
  rfl

/-- The weight array at (b, i, j) is the row's softmax weight. -/
theorem weightScore_row (i j : Fin 20) :
    refWeights (refScores a0 a1 a2 a3 a4) (ix4 b i j (0 : Fin 1))
      = Cert.AttRow.weight (Cert.AttRow.score (fun n d => a0 (ix3 b n d)) (fun o d => a1 (ix2 o d)) (fun o => a2 (ix1 o)) (fun o => a3 (ix2 (0 : Fin 1) o)) (a4 (ix1 (0 : Fin 1))) i) j :=
  (weight_row b (refScores a0 a1 a2 a3 a4) i j).trans
    (congrArg (fun s => Cert.AttRow.weight s j) (score_fun a0 a1 a2 a3 a4 b i))

/-- The mixture at (b, i, d) is the row's. -/
theorem mix_row (i : Fin 20) (d : Fin 64) :
    (refMix (refWeights (refScores a0 a1 a2 a3 a4)) (refItems a0)) (ix3 b i d) = Cert.AttRow.mix (fun n d => a0 (ix3 b n d)) (fun o d => a1 (ix2 o d)) (fun o => a2 (ix1 o)) (fun o => a3 (ix2 (0 : Fin 1) o)) (a4 (ix1 (0 : Fin 1))) i d := by
  rw [refMix_apply]
  unfold Cert.AttRow.mix
  refine Finset.sum_congr rfl fun j _ => ?_
  rw [weightScore_row, items_row]

/-- The first affine map at (b, i, o) is the row's. -/
theorem lin1_row (i : Fin 20) (o : Fin 64) :
    refLin3 (refMix (refWeights (refScores a0 a1 a2 a3 a4)) (refItems a0)) a5 a6 (ix3 b i o) = Cert.AttRow.lin1 (fun n d => a0 (ix3 b n d)) (fun o d => a1 (ix2 o d)) (fun o => a2 (ix1 o)) (fun o => a3 (ix2 (0 : Fin 1) o)) (a4 (ix1 (0 : Fin 1))) (fun o d => a5 (ix2 o d)) (fun o => a6 (ix1 o)) i o := by
  rw [refLin3_apply]
  unfold Cert.AttRow.lin1
  congr 1
  refine Finset.sum_congr rfl fun d _ => ?_
  rw [mix_row]

/-- The second affine map, of the first plus the item, at (b, i, o) is the row's. -/
theorem lin2_row (i : Fin 20) (o : Fin 64) :
    refLin3 (addf (F := Ideal) (refLin3 (refMix (refWeights (refScores a0 a1 a2 a3 a4)) (refItems a0)) a5 a6) (refItems a0)) a7 a8 (ix3 b i o)
      = Cert.AttRow.lin2 (fun n d => a0 (ix3 b n d)) (fun o d => a1 (ix2 o d)) (fun o => a2 (ix1 o)) (fun o => a3 (ix2 (0 : Fin 1) o)) (a4 (ix1 (0 : Fin 1))) (fun o d => a5 (ix2 o d)) (fun o => a6 (ix1 o)) (fun o d => a7 (ix2 o d)) (fun o => a8 (ix1 o)) i o := by
  rw [refLin3_apply]
  unfold Cert.AttRow.lin2
  congr 1
  refine Finset.sum_congr rfl fun d _ => ?_
  rw [addf_apply, lin1_row, items_row]

/-- The reference's result at (b, i, o) is the row function of row b at item i, coordinate o. -/
theorem refOut_apply (i : Fin 20) (o : Fin 64) :
    refOut a0 a1 a2 a3 a4 a5 a6 a7 a8 (ix3 b i o) = Cert.AttRow.out (fun n d => a0 (ix3 b n d)) (fun o d => a1 (ix2 o d)) (fun o => a2 (ix1 o)) (fun o => a3 (ix2 (0 : Fin 1) o)) (a4 (ix1 (0 : Fin 1))) (fun o d => a5 (ix2 o d)) (fun o => a6 (ix1 o)) (fun o d => a7 (ix2 o d)) (fun o => a8 (ix1 o)) i o := by
  unfold refOut
  rw [refLrelu3_apply, addf_apply, mulf_apply, refUser_apply, items_row, lin2_row]
  rfl

/-- The reference's result array is the specification's. -/
theorem refOut_eq_G : refOut a0 a1 a2 a3 a4 a5 a6 a7 a8 = Cert.AttRow.G a0 a1 a2 a3 a4 a5 a6 a7 a8 := by
  funext y
  obtain ⟨b, i, o, rfl⟩ : ∃ (b : Fin 4096) (i : Fin 20) (o : Fin 64), y = ix3 b i o := ⟨y 0, y 1, y 2, eq_ix3 y⟩
  exact (refOut_apply a0 a1 a2 a3 a4 a5 a6 a7 a8 b i o).trans (Cert.AttRow.G_apply a0 a1 a2 a3 a4 a5 a6 a7 a8 b i o).symm

end Cert.ReferenceIdeal.RefValue

end
-- ==== Proof.RefValue.lean ====
/-
  The reference's run: from any memory with zero counters every weakly fair execution of @main terminates with the
  result buffer holding the row function applied to every row of the embeddings, and the nine arguments unchanged.
-/
import proofs.«134249_j42984032698946_2_alg».proof.Proof.RefTerm
import proofs.«134249_j42984032698946_2_alg».proof.Proof.RefRow

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
          = Cert.AttRow.G (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v44).trans ((result_eq _).trans (refOut_eq_G _ _ _ _ _ _ _ _ _)),
       (h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _),
       (h c main_arg7).trans (arg7_eq _),
       (h c main_arg8).trans (arg8_eq _)⟩)
    (run_main m ρ)

end Cert.ReferenceIdeal.RefValue

end
-- ==== Proof.lean ====
/-
  The certificate of an additive-attention layer over 4096 batch rows of 21 embedding vectors of 64 numbers.

  Both programs compute, for every batch row, one function of that row and of the weight arrays (the row function of
  Proof/Spec.lean): hidden vectors of all pairs of items through a leaky rectifier, scores, a softmax over the second
  item taken from the row maximum, the items mixed with the weights, two affine maps with a residual, and the leaky
  rectifier of the user-item product plus the result. The kernel does it on blocks of 64 rows with the pair and item
  axes flattened into matrix rows; the reference on whole arrays with unit axes and broadcasts. On the extended reals
  a change of float format is the identity and every product of matrices is the same finite sum, so the two results
  agree entry by entry; no law that needs finite operands is used.

  The kernel's side: Proof/KernelStages.lean (the body's stages), KernelRead.lean and KernelMix.lean (each stage at an
  index), KernelBlock.lean (the stored block is the row function), KernelValue.lean (the 64 blocks cover the array).
  The reference's side: Proof/RefRun.lean (its operations in order, the calls' bodies at their call sites), and the
  modules RefValue.lean imports (each stage at an index, the result array as the same whole-array function).
  The idealized kernel differs from the kernel by no rewrite, so there is nothing to preserve.
-/
import proofs.«134249_j42984032698946_2_alg».proof.Defs
import proofs.«134249_j42984032698946_2_alg».proof.Proof.Gen.Kernel
import proofs.«134249_j42984032698946_2_alg».proof.Proof.Gen.Kernel.Skeleton
import proofs.«134249_j42984032698946_2_alg».proof.Proof.Gen.Kernel.Launch
import proofs.«134249_j42984032698946_2_alg».proof.Proof.Gen.Kernel.Points
import proofs.«134249_j42984032698946_2_alg».proof.Proof.Gen.Kernel.Frame
import proofs.«134249_j42984032698946_2_alg».proof.Proof.Gen.KernelIdeal
import proofs.«134249_j42984032698946_2_alg».proof.Proof.Gen.KernelIdeal.Skeleton
import proofs.«134249_j42984032698946_2_alg».proof.Proof.Gen.KernelIdeal.Launch
import proofs.«134249_j42984032698946_2_alg».proof.Proof.Gen.KernelIdeal.Points
import proofs.«134249_j42984032698946_2_alg».proof.Proof.Gen.KernelIdeal.Frame
import proofs.«134249_j42984032698946_2_alg».proof.Proof.Gen.KernelIdeal.Value
import proofs.«134249_j42984032698946_2_alg».proof.Proof.Gen.ReferenceIdeal
import proofs.«134249_j42984032698946_2_alg».proof.Proof.Gen.Pre_finite_inputs
import proofs.«134249_j42984032698946_2_alg».proof.Proof.KernelValue
import proofs.«134249_j42984032698946_2_alg».proof.Proof.RefValue
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealized kernel is the kernel's own text: no rewrite to account for. -/
theorem preserves : Cert.preserves_Kernel_KernelIdeal := trivial

/-- From memories that agree on the arguments both programs end with the whole-array function of the arguments. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
